-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S671088 : Shape := ⟨1, ![671088]⟩
abbrev S8192x1024 : Shape := ⟨2, ![8192, 1024]⟩
abbrev S1024 : Shape := ⟨1, ![1024]⟩
abbrev S8192x256 : Shape := ⟨2, ![8192, 256]⟩
abbrev S256 : Shape := ⟨1, ![256]⟩
abbrev S256x1024 : Shape := ⟨2, ![256, 1024]⟩
abbrev S_ : Shape := ⟨0, ![]⟩

class Facts : Prop where
  bcast_S_S671088 : S_.BroadcastsInDim S671088 (![] : Fin 0 → Fin S671088.rank)
  reducesTo_S671088_S_d0 : S671088.ReducesTo [0] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_
  bcast_S_S8192x256 : S_.BroadcastsInDim S8192x256 (![] : Fin 0 → Fin S8192x256.rank)
  reducesTo_S8192x256_S_d0_1 : S8192x256.ReducesTo [0, 1] S_
  bcast_S_S256 : S_.BroadcastsInDim S256 (![] : Fin 0 → Fin S256.rank)
  reducesTo_S256_S_d0 : S256.ReducesTo [0] S_
  bcast_S_S256x1024 : S_.BroadcastsInDim S256x1024 (![] : Fin 0 → Fin S256x1024.rank)
  reducesTo_S256x1024_S_d0_1 : S256x1024.ReducesTo [0, 1] S_

variable [Facts]

def fn_part1 {F : FTy → Type} [FloatOps F] (main_arg4 : FVec F S256 .f32) (main_arg5 : FVec F S256x1024 .f32) (main_arg7 : IVec S671088 32) (main_v13 : IVec S_ 1) (main_v16 : IVec S8192x256 1) : IVec S_ 1 :=
  let main_c_5 : IVec S_ 1 := constantI S_ 1 1#1
  let main_v17 : IVec S_ 1 := (fun x v => Host.reduce IntOp.andi x v reducesTo_S8192x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1024 .f32 := Host.absf main_arg5
  let main_cst_8 : FVec F S_ .f32 := constant S_ .f32 0x7F800000#32
  let main_v25 : FVec F S256x1024 .f32 := broadcastInDim S256x1024 ![] bcast_S_S256x1024 main_cst_8
  let main_v26 : IVec S256x1024 1 := cmpf .olt main_v24 main_v25
  let main_c_9 : IVec S_ 1 := constantI S_ 1 1#1
  let main_v27 : IVec S_ 1 := (fun x v => Host.reduce IntOp.andi x v reducesTo_S256x1024_S_d0_1 h_S_) main_v26 main_c_9
  let main_v28 : IVec S_ 1 := andi main_v23 main_v27
  let main_c_10 : IVec S_ 32 := constantI S_ 32 0#32
  let main_v29 : IVec S671088 32 := broadcastInDim S671088 ![] bcast_S_S671088 main_c_10
  let main_v30 : IVec S671088 1 := cmpi .sge main_arg7 main_v29
  let main_c_11 : IVec S_ 1 := constantI S_ 1 1#1
  let main_v31 : IVec S_ 1 := (fun x v => Host.reduce IntOp.andi x v reducesTo_S671088_S_d0 h_S_) main_v30 main_c_11
  let main_v32 : IVec S_ 1 := andi main_v28 main_v31
  main_v32

def fn {F : FTy → Type} [FloatOps F] (main_arg0 : FVec F S671088 .f32) (main_arg1 : FVec F S8192x1024 .f32) (main_arg2 : FVec F S1024 .f32) (main_arg3 : FVec F S8192x256 .f32) (main_arg4 : FVec F S256 .f32) (main_arg5 : FVec F S256x1024 .f32) (main_arg6 : IVec S671088 32) (main_arg7 : IVec S671088 32) : IVec S_ 1 :=
  let main_v0 : FVec F S671088 .f32 := Host.absf main_arg0
  let main_cst : FVec F S_ .f32 := constant S_ .f32 0x7F800000#32
  let main_v1 : FVec F S671088 .f32 := broadcastInDim S671088 ![] bcast_S_S671088 main_cst
  let main_v2 : IVec S671088 1 := cmpf .olt main_v0 main_v1
  let main_c : IVec S_ 1 := constantI S_ 1 1#1
  let main_v3 : IVec S_ 1 := (fun x v => Host.reduce IntOp.andi x v reducesTo_S671088_S_d0 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S8192x256 .f32 := Host.absf main_arg3
  let main_cst_4 : FVec F S_ .f32 := constant S_ .f32 0x7F800000#32
  let main_v15 : FVec F S8192x256 .f32 := broadcastInDim S8192x256 ![] bcast_S_S8192x256 main_cst_4
  let main_v16 : IVec S8192x256 1 := cmpf .olt main_v14 main_v15
  fn_part1 (F := F) main_arg4 main_arg5 main_arg7 main_v13 main_v16
-- ==== Kernel.lean ====
abbrev S671088 : Shape := ⟨1, ![671088]⟩
abbrev S8192x1024 : Shape := ⟨2, ![8192, 1024]⟩
abbrev S1024 : Shape := ⟨1, ![1024]⟩
abbrev S8192x256 : Shape := ⟨2, ![8192, 256]⟩
abbrev S256 : Shape := ⟨1, ![256]⟩
abbrev S256x1024 : Shape := ⟨2, ![256, 1024]⟩
abbrev S_ : Shape := ⟨0, ![]⟩
abbrev S4096x16384 : Shape := ⟨2, ![4096, 16384]⟩
abbrev S671088x1 : Shape := ⟨2, ![671088, 1]⟩
abbrev S671088x2 : Shape := ⟨2, ![671088, 2]⟩
abbrev S1x1024 : Shape := ⟨2, ![1, 1024]⟩
abbrev S1x256 : Shape := ⟨2, ![1, 256]⟩
abbrev S4096x1024 : Shape := ⟨2, ![4096, 1024]⟩
abbrev S128x16384 : Shape := ⟨2, ![128, 16384]⟩
abbrev S128x1024 : Shape := ⟨2, ![128, 1024]⟩
abbrev S128x8192 : Shape := ⟨2, ![128, 8192]⟩
abbrev S128x256 : Shape := ⟨2, ![128, 256]⟩

abbrev nBuf : Space → Nat
  | .hbm => 34
  | .vmem => 9
  | .smem => 0
  | _ => 0

abbrev bufTy : (tb : Table) → Fin (tcTables nBuf tb) → BufTy
  | .hbm, ⟨0, _⟩ => ⟨S671088, .f32⟩
  | .hbm, ⟨1, _⟩ => ⟨S8192x1024, .f32⟩
  | .hbm, ⟨2, _⟩ => ⟨S1024, .f32⟩
  | .hbm, ⟨3, _⟩ => ⟨S8192x256, .f32⟩
  | .hbm, ⟨4, _⟩ => ⟨S256, .f32⟩
  | .hbm, ⟨5, _⟩ => ⟨S256x1024, .f32⟩
  | .hbm, ⟨6, _⟩ => ⟨S671088, .i32⟩
  | .hbm, ⟨7, _⟩ => ⟨S671088, .i32⟩
  | .hbm, ⟨8, _⟩ => ⟨S_, .f32⟩
  | .hbm, ⟨9, _⟩ => ⟨S4096x16384, .f32⟩
  | .hbm, ⟨10, _⟩ => ⟨S_, .i32⟩
  | .hbm, ⟨11, _⟩ => ⟨S671088, .i32⟩
  | .hbm, ⟨12, _⟩ => ⟨S671088, .i1⟩
  | .hbm, ⟨13, _⟩ => ⟨S_, .i32⟩
  | .hbm, ⟨14, _⟩ => ⟨S671088, .i32⟩
  | .hbm, ⟨15, _⟩ => ⟨S671088, .i32⟩
  | .hbm, ⟨16, _⟩ => ⟨S671088, .i32⟩
  | .hbm, ⟨17, _⟩ => ⟨S_, .i32⟩
  | .hbm, ⟨18, _⟩ => ⟨S671088, .i32⟩
  | .hbm, ⟨19, _⟩ => ⟨S671088, .i1⟩
  | .hbm, ⟨20, _⟩ => ⟨S_, .i32⟩
  | .hbm, ⟨21, _⟩ => ⟨S671088, .i32⟩
  | .hbm, ⟨22, _⟩ => ⟨S671088, .i32⟩
  | .hbm, ⟨23, _⟩ => ⟨S671088, .i32⟩
  | .hbm, ⟨24, _⟩ => ⟨S671088x1, .i32⟩
  | .hbm, ⟨25, _⟩ => ⟨S671088x1, .i32⟩
  | .hbm, ⟨26, _⟩ => ⟨S671088x2, .i32⟩
  | .hbm, ⟨27, _⟩ => ⟨S4096x16384, .f32⟩
  | .hbm, ⟨28, _⟩ => ⟨S8192x1024, .bf16⟩
  | .hbm, ⟨29, _⟩ => ⟨S8192x256, .bf16⟩
  | .hbm, ⟨30, _⟩ => ⟨S256x1024, .bf16⟩
  | .hbm, ⟨31, _⟩ => ⟨S1x1024, .f32⟩
  | .hbm, ⟨32, _⟩ => ⟨S1x256, .f32⟩
  | .hbm, ⟨33, _⟩ => ⟨S4096x1024, .f32⟩
  | .local _ .vmem, ⟨0, _⟩ => ⟨S128x16384, .f32⟩
  | .local _ .vmem, ⟨1, _⟩ => ⟨S128x16384, .f32⟩
  | .local _ .vmem, ⟨2, _⟩ => ⟨S8192x1024, .bf16⟩
  | .local _ .vmem, ⟨3, _⟩ => ⟨S8192x256, .bf16⟩
  | .local _ .vmem, ⟨4, _⟩ => ⟨S256x1024, .bf16⟩
  | .local _ .vmem, ⟨5, _⟩ => ⟨S1x1024, .f32⟩
  | .local _ .vmem, ⟨6, _⟩ => ⟨S1x256, .f32⟩
  | .local _ .vmem, ⟨7, _⟩ => ⟨S128x1024, .f32⟩
  | .local _ .vmem, ⟨8, _⟩ => ⟨S128x1024, .f32⟩
  | _, _ => ⟨S671088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S4096x16384 : S_.BroadcastsInDim S4096x16384 (![] : Fin 0 → Fin S4096x16384.rank)
  bcast_S_S671088 : S_.BroadcastsInDim S671088 (![] : Fin 0 → Fin S671088.rank)
  bcast_S671088_S671088x1_0 : S671088.BroadcastsInDim S671088x1 (![0] : Fin 1 → Fin S671088x1.rank)
  concatenates_S671088x1_S671088x1_S671088x2_d1 : Shape.Concatenates [S671088x1, S671088x1] S671088x2 1
  bitsLt_bf16_f32 : FTy.bits .bf16 < FTy.bits .f32
  shapeCasts_S1024_S1x1024 : S1024.ShapeCasts S1x1024
  shapeCasts_S256_S1x256 : S256.ShapeCasts S1x256
  inb_S128x16384_S128x16384_0_0 : ∀ a, (![0, 0] : Fin 2 → Nat) a + S128x16384.size a ≤ S128x16384.size a
  h_S128x16384 : 0 < S128x16384.numel
  shapeCasts_S128x16384_S128x16384 : S128x16384.ShapeCasts S128x16384
  slices_S128x16384_o0_0_S128x8192 : S128x16384.Slices ![0, 0] S128x8192
  slices_S128x16384_o0_8192_S128x8192 : S128x16384.Slices ![0, 8192] S128x8192
  inb_S8192x1024_S8192x1024_0_0 : ∀ a, (![0, 0] : Fin 2 → Nat) a + S8192x1024.size a ≤ S8192x1024.size a
  h_S8192x1024 : 0 < S8192x1024.numel
  shapeCasts_S8192x1024_S8192x1024 : S8192x1024.ShapeCasts S8192x1024
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  inb_S128x1024_S128x1024_0_0 : ∀ a, (![0, 0] : Fin 2 → Nat) a + S128x1024.size a ≤ S128x1024.size a
  h_S128x1024 : 0 < S128x1024.numel
  scatter_S4096x16384_S671088x2_S671088_n_01_01_1_wf : ScatterDims.WF S4096x16384 S671088x2 S671088 [] [0, 1] [0, 1] 1
  dot_S128x8192_S8192x1024_S128x1024_1_0_0_1_n_n_wf : DotDims.WF S128x8192 S8192x1024 S128x1024 [1] [0] [0] [1] [] []
  dot_S128x8192_S8192x256_S128x256_1_0_0_1_n_n_wf : DotDims.WF S128x8192 S8192x256 S128x256 [1] [0] [0] [1] [] []
  dot_S128x256_S256x1024_S128x1024_1_0_0_1_n_n_wf : DotDims.WF S128x256 S256x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16384.size a ≤ S4096x16384.size a
  hwx0_0 : ∀ i : grid0.Coords, EltTy.bits .f32 = 32 ∨ (Rect.block (s := S4096x16384) S128x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x1024.size a ≤ S8192x1024.size a
  hwx0_1 : ∀ i : grid0.Coords, EltTy.bits .bf16 = 32 ∨ (Rect.block (s := S8192x1024) S8192x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x256.size a ≤ S8192x256.size a
  hwx0_2 : ∀ i : grid0.Coords, EltTy.bits .bf16 = 32 ∨ (Rect.block (s := S8192x256) S8192x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x1024.size a
  hwx0_3 : ∀ i : grid0.Coords, EltTy.bits .bf16 = 32 ∨ (Rect.block (s := S256x1024) S256x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S4096x1024.size a
  hwx0_6 : ∀ i : grid0.Coords, EltTy.bits .f32 = 32 ∨ (Rect.block (s := S4096x1024) S128x1024.size (cc0_transform_6 i) (hinb0_6 i)).WholeWords (EltTy.packing .f32)

variable [Facts₀]

def scatter_S4096x16384_S671088x2_S671088_n_01_01_1 : ScatterDims S4096x16384 S671088x2 S671088 where
  updateWindowDims := []
  insertedWindowDims := [0, 1]
  scatterDimsToOperandDims := [0, 1]
  indexVectorDim := 1
  wf := scatter_S4096x16384_S671088x2_S671088_n_01_01_1_wf
def dot_S128x8192_S8192x1024_S128x1024_1_0_0_1_n_n : DotDims S128x8192 S8192x1024 S128x1024 where
  lhsContracting := [1]
  rhsContracting := [0]
  lhsNonContracting := [0]
  rhsNonContracting := [1]
  lhsBatch := []
  rhsBatch := []
  wf := dot_S128x8192_S8192x1024_S128x1024_1_0_0_1_n_n_wf
def dot_S128x8192_S8192x256_S128x256_1_0_0_1_n_n : DotDims S128x8192 S8192x256 S128x256 where
  lhsContracting := [1]
  rhsContracting := [0]
  lhsNonContracting := [0]
  rhsNonContracting := [1]
  lhsBatch := []
  rhsBatch := []
  wf := dot_S128x8192_S8192x256_S128x256_1_0_0_1_n_n_wf
def dot_S128x256_S256x1024_S128x1024_1_0_0_1_n_n : DotDims S128x256 S256x1024 S128x1024 where
  lhsContracting := [1]
  rhsContracting := [0]
  lhsNonContracting := [0]
  rhsNonContracting := [1]
  lhsBatch := []
  rhsBatch := []
  wf := dot_S128x256_S256x1024_S128x1024_1_0_0_1_n_n_wf

abbrev win0_0 : Pipeline.Window sig grid0 :=
  Pipeline.Window.ofSpec (Memref.whole main_v14) S128x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S8192x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S8192x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S256x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S128x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S671088 : Shape := ⟨1, ![671088]⟩
abbrev S8192x1024 : Shape := ⟨2, ![8192, 1024]⟩
abbrev S1024 : Shape := ⟨1, ![1024]⟩
abbrev S8192x256 : Shape := ⟨2, ![8192, 256]⟩
abbrev S256 : Shape := ⟨1, ![256]⟩
abbrev S256x1024 : Shape := ⟨2, ![256, 1024]⟩
abbrev S_ : Shape := ⟨0, ![]⟩
abbrev S4096x8192 : Shape := ⟨2, ![4096, 8192]⟩
abbrev S671088x1 : Shape := ⟨2, ![671088, 1]⟩
abbrev S671088x2 : Shape := ⟨2, ![671088, 2]⟩
abbrev S4096x1024 : Shape := ⟨2, ![4096, 1024]⟩
abbrev S1x1024 : Shape := ⟨2, ![1, 1024]⟩
abbrev S4096x256 : Shape := ⟨2, ![4096, 256]⟩
abbrev S1x256 : Shape := ⟨2, ![1, 256]⟩

abbrev nBuf : Space → Nat
  | .hbm => 80
  | .vmem => 0
  | .smem => 0
  | _ => 0

abbrev bufTy : (tb : Table) → Fin (tcTables nBuf tb) → BufTy
  | .hbm, ⟨0, _⟩ => ⟨S671088, .f32⟩
  | .hbm, ⟨1, _⟩ => ⟨S8192x1024, .f32⟩
  | .hbm, ⟨2, _⟩ => ⟨S1024, .f32⟩
  | .hbm, ⟨3, _⟩ => ⟨S8192x256, .f32⟩
  | .hbm, ⟨4, _⟩ => ⟨S256, .f32⟩
  | .hbm, ⟨5, _⟩ => ⟨S256x1024, .f32⟩
  | .hbm, ⟨6, _⟩ => ⟨S671088, .i32⟩
  | .hbm, ⟨7, _⟩ => ⟨S671088, .i32⟩
  | .hbm, ⟨8, _⟩ => ⟨S_, .i32⟩
  | .hbm, ⟨9, _⟩ => ⟨S671088, .i32⟩
  | .hbm, ⟨10, _⟩ => ⟨S671088, .i1⟩
  | .hbm, ⟨11, _⟩ => ⟨S_, .f32⟩
  | .hbm, ⟨12, _⟩ => ⟨S_, .f32⟩
  | .hbm, ⟨13, _⟩ => ⟨S671088, .f32⟩
  | .hbm, ⟨14, _⟩ => ⟨S671088, .f32⟩
  | .hbm, ⟨15, _⟩ => ⟨S_, .i32⟩
  | .hbm, ⟨16, _⟩ => ⟨S_, .i32⟩
  | .hbm, ⟨17, _⟩ => ⟨S671088, .i32⟩
  | .hbm, ⟨18, _⟩ => ⟨S671088, .i32⟩
  | .hbm, ⟨19, _⟩ => ⟨S_, .f32⟩
  | .hbm, ⟨20, _⟩ => ⟨S4096x8192, .f32⟩
  | .hbm, ⟨21, _⟩ => ⟨S_, .i32⟩
  | .hbm, ⟨22, _⟩ => ⟨S671088, .i32⟩
  | .hbm, ⟨23, _⟩ => ⟨S671088, .i1⟩
  | .hbm, ⟨24, _⟩ => ⟨S_, .i32⟩
  | .hbm, ⟨25, _⟩ => ⟨S671088, .i32⟩
  | .hbm, ⟨26, _⟩ => ⟨S671088, .i32⟩
  | .hbm, ⟨27, _⟩ => ⟨S671088, .i32⟩
  | .hbm, ⟨28, _⟩ => ⟨S_, .i32⟩
  | .hbm, ⟨29, _⟩ => ⟨S671088, .i32⟩
  | .hbm, ⟨30, _⟩ => ⟨S671088, .i1⟩
  | .hbm, ⟨31, _⟩ => ⟨S_, .i32⟩
  | .hbm, ⟨32, _⟩ => ⟨S671088, .i32⟩
  | .hbm, ⟨33, _⟩ => ⟨S671088, .i32⟩
  | .hbm, ⟨34, _⟩ => ⟨S671088, .i32⟩
  | .hbm, ⟨35, _⟩ => ⟨S671088x1, .i32⟩
  | .hbm, ⟨36, _⟩ => ⟨S671088x1, .i32⟩
  | .hbm, ⟨37, _⟩ => ⟨S671088x2, .i32⟩
  | .hbm, ⟨38, _⟩ => ⟨S4096x8192, .f32⟩
  | .hbm, ⟨39, _⟩ => ⟨S_, .f32⟩
  | .hbm, ⟨40, _⟩ => ⟨S_, .f32⟩
  | .hbm, ⟨41, _⟩ => ⟨S671088, .f32⟩
  | .hbm, ⟨42, _⟩ => ⟨S671088, .f32⟩
  | .hbm, ⟨43, _⟩ => ⟨S_, .i32⟩
  | .hbm, ⟨44, _⟩ => ⟨S671088, .i32⟩
  | .hbm, ⟨45, _⟩ => ⟨S671088, .i32⟩
  | .hbm, ⟨46, _⟩ => ⟨S_, .i32⟩
  | .hbm, ⟨47, _⟩ => ⟨S_, .i32⟩
  | .hbm, ⟨48, _⟩ => ⟨S671088, .i32⟩
  | .hbm, ⟨49, _⟩ => ⟨S671088, .i32⟩
  | .hbm, ⟨50, _⟩ => ⟨S_, .f32⟩
  | .hbm, ⟨51, _⟩ => ⟨S4096x8192, .f32⟩
  | .hbm, ⟨52, _⟩ => ⟨S_, .i32⟩
  | .hbm, ⟨53, _⟩ => ⟨S671088, .i32⟩
  | .hbm, ⟨54, _⟩ => ⟨S671088, .i1⟩
  | .hbm, ⟨55, _⟩ => ⟨S_, .i32⟩
  | .hbm, ⟨56, _⟩ => ⟨S671088, .i32⟩
  | .hbm, ⟨57, _⟩ => ⟨S671088, .i32⟩
  | .hbm, ⟨58, _⟩ => ⟨S671088, .i32⟩
  | .hbm, ⟨59, _⟩ => ⟨S_, .i32⟩
  | .hbm, ⟨60, _⟩ => ⟨S671088, .i32⟩
  | .hbm, ⟨61, _⟩ => ⟨S671088, .i1⟩
  | .hbm, ⟨62, _⟩ => ⟨S_, .i32⟩
  | .hbm, ⟨63, _⟩ => ⟨S671088, .i32⟩
  | .hbm, ⟨64, _⟩ => ⟨S671088, .i32⟩
  | .hbm, ⟨65, _⟩ => ⟨S671088, .i32⟩
  | .hbm, ⟨66, _⟩ => ⟨S671088x1, .i32⟩
  | .hbm, ⟨67, _⟩ => ⟨S671088x1, .i32⟩
  | .hbm, ⟨68, _⟩ => ⟨S671088x2, .i32⟩
  | .hbm, ⟨69, _⟩ => ⟨S4096x8192, .f32⟩
  | .hbm, ⟨70, _⟩ => ⟨S4096x1024, .f32⟩
  | .hbm, ⟨71, _⟩ => ⟨S1x1024, .f32⟩
  | .hbm, ⟨72, _⟩ => ⟨S4096x1024, .f32⟩
  | .hbm, ⟨73, _⟩ => ⟨S4096x1024, .f32⟩
  | .hbm, ⟨74, _⟩ => ⟨S4096x256, .f32⟩
  | .hbm, ⟨75, _⟩ => ⟨S1x256, .f32⟩
  | .hbm, ⟨76, _⟩ => ⟨S4096x256, .f32⟩
  | .hbm, ⟨77, _⟩ => ⟨S4096x256, .f32⟩
  | .hbm, ⟨78, _⟩ => ⟨S4096x1024, .f32⟩
  | .hbm, ⟨79, _⟩ => ⟨S4096x1024, .f32⟩
  | _, _ => ⟨S671088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_v2 : Ref sig .tc := ⟨.hbm, 14, rfl⟩
abbrev main_c_0 : Ref sig .tc := ⟨.hbm, 15, rfl⟩
abbrev main_call1_v0 : Ref sig .tc := ⟨.hbm, 16, rfl⟩
abbrev main_call1_v1 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_c_2 : Ref sig .tc := ⟨.hbm, 21, rfl⟩
abbrev main_v5 : Ref sig .tc := ⟨.hbm, 22, rfl⟩
abbrev main_v6 : Ref sig .tc := ⟨.hbm, 23, rfl⟩
abbrev main_c_3 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c_4 : Ref sig .tc := ⟨.hbm, 28, rfl⟩
abbrev main_v10 : Ref sig .tc := ⟨.hbm, 29, rfl⟩
abbrev main_v11 : Ref sig .tc := ⟨.hbm, 30, rfl⟩
abbrev main_c_5 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_6 : Ref sig .tc := ⟨.hbm, 39, rfl⟩
abbrev main_call2_v0 : Ref sig .tc := ⟨.hbm, 40, rfl⟩
abbrev main_call2_v1 : Ref sig .tc := ⟨.hbm, 41, rfl⟩
abbrev main_v19 : Ref sig .tc := ⟨.hbm, 42, rfl⟩
abbrev main_c_7 : Ref sig .tc := ⟨.hbm, 43, rfl⟩
abbrev main_v20 : Ref sig .tc := ⟨.hbm, 44, rfl⟩
abbrev main_v21 : Ref sig .tc := ⟨.hbm, 45, rfl⟩
abbrev main_c_8 : Ref sig .tc := ⟨.hbm, 46, rfl⟩
abbrev main_call3_v0 : Ref sig .tc := ⟨.hbm, 47, rfl⟩
abbrev main_call3_v1 : Ref sig .tc := ⟨.hbm, 48, rfl⟩
abbrev main_v22 : Ref sig .tc := ⟨.hbm, 49, rfl⟩
abbrev main_cst_9 : Ref sig .tc := ⟨.hbm, 50, rfl⟩
abbrev main_v23 : Ref sig .tc := ⟨.hbm, 51, rfl⟩
abbrev main_c_10 : Ref sig .tc := ⟨.hbm, 52, rfl⟩
abbrev main_v24 : Ref sig .tc := ⟨.hbm, 53, rfl⟩
abbrev main_v25 : Ref sig .tc := ⟨.hbm, 54, rfl⟩
abbrev main_c_11 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_c_12 : Ref sig .tc := ⟨.hbm, 59, rfl⟩
abbrev main_v29 : Ref sig .tc := ⟨.hbm, 60, rfl⟩
abbrev main_v30 : Ref sig .tc := ⟨.hbm, 61, rfl⟩
abbrev main_c_13 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩

abbrev nD : Nat := 1
abbrev τ : Topo := Topo.v7x

variable {F : FTy → Type} [FloatOps F]

class Facts₀ : Prop where
  bcast_S_S671088 : S_.BroadcastsInDim S671088 (![] : Fin 0 → Fin S671088.rank)
  bcast_S_S4096x8192 : S_.BroadcastsInDim S4096x8192 (![] : Fin 0 → Fin S4096x8192.rank)
  bcast_S671088_S671088x1_0 : S671088.BroadcastsInDim S671088x1 (![0] : Fin 1 → Fin S671088x1.rank)
  concatenates_S671088x1_S671088x1_S671088x2_d1 : Shape.Concatenates [S671088x1, S671088x1] S671088x2 1
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  scatter_S4096x8192_S671088x2_S671088_n_01_01_1_wf : ScatterDims.WF S4096x8192 S671088x2 S671088 [] [0, 1] [0, 1] 1
  dot_S4096x8192_S8192x1024_S4096x1024_1_0_0_1_n_n_wf : DotDims.WF S4096x8192 S8192x1024 S4096x1024 [1] [0] [0] [1] [] []
  dot_S4096x8192_S8192x256_S4096x256_1_0_0_1_n_n_wf : DotDims.WF S4096x8192 S8192x256 S4096x256 [1] [0] [0] [1] [] []
  dot_S4096x256_S256x1024_S4096x1024_1_0_0_1_n_n_wf : DotDims.WF S4096x256 S256x1024 S4096x1024 [1] [0] [0] [1] [] []

variable [Facts₀]

def scatter_S4096x8192_S671088x2_S671088_n_01_01_1 : ScatterDims S4096x8192 S671088x2 S671088 where
  updateWindowDims := []
  insertedWindowDims := [0, 1]
  scatterDimsToOperandDims := [0, 1]
  indexVectorDim := 1
  wf := scatter_S4096x8192_S671088x2_S671088_n_01_01_1_wf
def dot_S4096x8192_S8192x1024_S4096x1024_1_0_0_1_n_n : DotDims S4096x8192 S8192x1024 S4096x1024 where
  lhsContracting := [1]
  rhsContracting := [0]
  lhsNonContracting := [0]
  rhsNonContracting := [1]
  lhsBatch := []
  rhsBatch := []
  wf := dot_S4096x8192_S8192x1024_S4096x1024_1_0_0_1_n_n_wf
def dot_S4096x8192_S8192x256_S4096x256_1_0_0_1_n_n : DotDims S4096x8192 S8192x256 S4096x256 where
  lhsContracting := [1]
  rhsContracting := [0]
  lhsNonContracting := [0]
  rhsNonContracting := [1]
  lhsBatch := []
  rhsBatch := []
  wf := dot_S4096x8192_S8192x256_S4096x256_1_0_0_1_n_n_wf
def dot_S4096x256_S256x1024_S4096x1024_1_0_0_1_n_n : DotDims S4096x256 S256x1024 S4096x1024 where
  lhsContracting := [1]
  rhsContracting := [0]
  lhsNonContracting := [0]
  rhsNonContracting := [1]
  lhsBatch := []
  rhsBatch := []
  wf := dot_S4096x256_S256x1024_S4096x1024_1_0_0_1_n_n_wf

class Facts : Prop extends Facts₀ where

variable [Facts]
-- ==== Proof.LibPointScatter.lean ====
/-
  One number per edge added into a matrix at the (row, column) the edge names, read at an entry.

  An edge list gives every edge `e` a row index and a column index, the two columns of an `[m, 2]` index array, and an
  update `upd e`. The scatter-add puts `upd e` onto the operand's entry at (row e, column e), both read signed; an edge
  whose row or column is outside the operand is dropped. So entry `(p, c)` of the result is the operand's entry plus
  the sum over ALL edges of the update where the edge's row is `p` and its column is `c`, and of zero elsewhere.
  The index array is usually made of two `[m]` vectors, each turned into an `[m, 1]` column and the two columns set
  side by side: its entry `(e, 0)` is the first vector's entry `e`, its entry `(e, 1)` the second's.
  The coordinate facts of the dimension record are hypotheses, so that one statement serves every record of this form.
-/
import Idealize.ShloMosaic.PureOps.Ideal
import Idealize.ShloMosaic.PureOps.Dims
import Idealize.ShloMosaic.Lib.ValueIdx
import Idealize.ShloMosaic.Lib.Pipeline.Value

noncomputable section

namespace Cert.LibPointScatter

open Idealize.ShloMosaic Idealize.ShloMosaic.ValueIdx

/-- GENERAL LEMMA. A scatter-add of `[m]` updates into an `[R, C]` operand at the points an `[m, 2]` index array names
    reads, at `(p, c)`, the operand plus the sum over the edges of the update where the edge's point is `(p, c)`. -/
theorem scatterAdd_points {R C m bw : ℕ}
    (d : ScatterDims (⟨2, ![R, C]⟩ : Shape) (⟨2, ![m, 2]⟩ : Shape) (⟨1, ![m]⟩ : Shape))
    (hs0 : ∀ (e : Fin m) (idx : IVec (⟨2, ![m, 2]⟩ : Shape) bw), d.start (ix1 e) idx 0 = (idx (ix2 e (0 : Fin 2))).toInt)
    (hs1 : ∀ (e : Fin m) (idx : IVec (⟨2, ![m, 2]⟩ : Shape) bw), d.start (ix1 e) idx 1 = (idx (ix2 e (1 : Fin 2))).toInt)
    (hw0 : ∀ (e : Fin m), d.window (ix1 e) 0 = 0)
    (hw1 : ∀ (e : Fin m), d.window (ix1 e) 1 = 0)
    (x : (⟨2, ![R, C]⟩ : Shape).Idx → EReal) (idx : IVec (⟨2, ![m, 2]⟩ : Shape) bw)
    (upd : (⟨1, ![m]⟩ : Shape).Idx → EReal) (p : Fin R) (c : Fin C) :
    Ideal.hostScatterAdd d x idx upd (ix2 p c) = x (ix2 p c) + ∑ e : Fin m,
      if (idx (ix2 e (0 : Fin 2))).toInt = (p.val : Int) ∧ (idx (ix2 e (1 : Fin 2))).toInt = (c.val : Int)
        then upd (ix1 e) else 0 := by
  have key : ∀ (e : Fin m), d.resultIdx? (ix1 e) idx = some (ix2 p c)
      ↔ ((idx (ix2 e (0 : Fin 2))).toInt = (p.val : Int) ∧ (idx (ix2 e (1 : Fin 2))).toInt = (c.val : Int)) := by
    intro e
    unfold ScatterDims.resultIdx?
    constructor
    · intro h
      split at h
      · rename_i hb
        have hf := Option.some.inj h
        have h0 : (d.start (ix1 e) idx 0 + (d.window (ix1 e) 0 : Int)).toNat = p.val := congrArg (fun f => (f 0).val) hf
        have h1 : (d.start (ix1 e) idx 1 + (d.window (ix1 e) 1 : Int)).toNat = c.val := congrArg (fun f => (f 1).val) hf
        have hb0 := (hb 0).1
        have hb1 := (hb 1).1
        rw [hs0, hw0] at h0 hb0
        rw [hs1, hw1] at h1 hb1
        exact ⟨by omega, by omega⟩
      · exact absurd h (by simp)
    · rintro ⟨h0, h1⟩
      have hb : ∀ a, 0 ≤ d.start (ix1 e) idx a + (d.window (ix1 e) a : Int)
          ∧ d.start (ix1 e) idx a + (d.window (ix1 e) a : Int) < ((⟨2, ![R, C]⟩ : Shape).size a : Int) := by
        intro a
        match a with
        | ⟨0, _⟩ =>
          show 0 ≤ d.start (ix1 e) idx 0 + (d.window (ix1 e) 0 : Int)
            ∧ d.start (ix1 e) idx 0 + (d.window (ix1 e) 0 : Int) < (R : Int)
          rw [hs0, hw0, h0]; have := p.isLt; omega
        | ⟨1, _⟩ =>
          show 0 ≤ d.start (ix1 e) idx 1 + (d.window (ix1 e) 1 : Int)
            ∧ d.start (ix1 e) idx 1 + (d.window (ix1 e) 1 : Int) < (C : Int)
          rw [hs1, hw1, h1]; have := c.isLt; omega
      rw [dif_pos hb]
      refine congrArg some (funext fun a => Fin.ext ?_)
      match a with
      | ⟨0, _⟩ =>
        show (d.start (ix1 e) idx 0 + (d.window (ix1 e) 0 : Int)).toNat = p.val
        rw [hs0, hw0, h0]; omega
      | ⟨1, _⟩ =>
        show (d.start (ix1 e) idx 1 + (d.window (ix1 e) 1 : Int)).toNat = c.val
        rw [hs1, hw1, h1]; omega
  unfold Ideal.hostScatterAdd
  refine congrArg (x (ix2 p c) + ·) ?_
  rw [Finset.sum_filter]
  rw [← Equiv.sum_comp (Equiv.ofBijective (fun e : Fin m => (ix1 e : (⟨1, ![m]⟩ : Shape).Idx))
    ⟨fun a b h => congrFun h 0, fun j => ⟨j 0, (eq_ix1 j).symm⟩⟩)]
  refine Finset.sum_congr rfl fun e _ => ?_
  show (if d.resultIdx? (ix1 e) idx = some (ix2 p c) then upd (ix1 e) else 0) = _
  by_cases hp : (idx (ix2 e (0 : Fin 2))).toInt = (p.val : Int) ∧ (idx (ix2 e (1 : Fin 2))).toInt = (c.val : Int)
  · rw [if_pos hp, if_pos ((key e).2 hp)]
  · rw [if_neg hp, if_neg (fun h => hp ((key e).1 h))]

/-- GENERAL LEMMA. The same reading for the host's operation at the exact values. -/
theorem host_scatterAdd_points {R C m bw : ℕ}
    (d : ScatterDims (⟨2, ![R, C]⟩ : Shape) (⟨2, ![m, 2]⟩ : Shape) (⟨1, ![m]⟩ : Shape))
    (hs0 : ∀ (e : Fin m) (idx : IVec (⟨2, ![m, 2]⟩ : Shape) bw), d.start (ix1 e) idx 0 = (idx (ix2 e (0 : Fin 2))).toInt)
    (hs1 : ∀ (e : Fin m) (idx : IVec (⟨2, ![m, 2]⟩ : Shape) bw), d.start (ix1 e) idx 1 = (idx (ix2 e (1 : Fin 2))).toInt)
    (hw0 : ∀ (e : Fin m), d.window (ix1 e) 0 = 0)
    (hw1 : ∀ (e : Fin m), d.window (ix1 e) 1 = 0)
    (x : FVec Ideal (⟨2, ![R, C]⟩ : Shape) .f32) (idx : IVec (⟨2, ![m, 2]⟩ : Shape) bw)
    (upd : FVec Ideal (⟨1, ![m]⟩ : Shape) .f32) (p : Fin R) (c : Fin C) :
    Host.scatterAdd d x idx upd (ix2 p c) = x (ix2 p c) + ∑ e : Fin m,
      if (idx (ix2 e (0 : Fin 2))).toInt = (p.val : Int) ∧ (idx (ix2 e (1 : Fin 2))).toInt = (c.val : Int)
        then upd (ix1 e) else 0 :=
  scatterAdd_points d hs0 hs1 hw0 hw1 x idx upd p c

variable {α : Type}

/-- GENERAL LEMMA. An `[m]` vector turned into an `[m, 1]` column reads, at `(e, u)`, the vector at `e`. -/
theorem column_apply {m : ℕ} (y : (⟨1, ![m]⟩ : Shape).Idx → α)
    (h : (⟨1, ![m]⟩ : Shape).BroadcastsInDim ⟨2, ![m, 1]⟩ (![0] : Fin 1 → Fin 2)) (e : Fin m) (u : Fin 1) :
    broadcastInDim ⟨2, ![m, 1]⟩ ![0] h y (ix2 e u) = y (ix1 e) := by
  refine broadcastInDim_apply _ h y (ix2 e u) (ix1 e) fun a => ?_
  match a with
  | ⟨0, _⟩ =>
    show e.val = if m = 1 then 0 else e.val
    split
    · have := e.isLt; omega
    · rfl

/-- GENERAL LEMMA. Two `[m, 1]` columns set side by side: entry `(e, 0)` is the first column's entry `e`. -/
theorem pair_left {m : ℕ} (a b : (⟨2, ![m, 1]⟩ : Shape).Idx → α)
    (h : Shape.Concatenates [(⟨2, ![m, 1]⟩ : Shape), ⟨2, ![m, 1]⟩] ⟨2, ![m, 2]⟩ 1) (e : Fin m) :
    concatenate ⟨2, ![m, 2]⟩ 1 [⟨⟨2, ![m, 1]⟩, a⟩, ⟨⟨2, ![m, 1]⟩, b⟩] h (ix2 e (0 : Fin 2)) = a (ix2 e (0 : Fin 1)) := by
  refine concatenate_pair_apply_left 1 a b h (ix2 e (0 : Fin 2)) rfl (ix2 e (0 : Fin 1)) fun ax => ?_
  match ax with
  | ⟨0, _⟩ => rfl
  | ⟨1, _⟩ => rfl

/-- GENERAL LEMMA. Two `[m, 1]` columns set side by side: entry `(e, 1)` is the second column's entry `e`. -/
theorem pair_right {m : ℕ} (a b : (⟨2, ![m, 1]⟩ : Shape).Idx → α)
    (h : Shape.Concatenates [(⟨2, ![m, 1]⟩ : Shape), ⟨2, ![m, 1]⟩] ⟨2, ![m, 2]⟩ 1) (e : Fin m) :
    concatenate ⟨2, ![m, 2]⟩ 1 [⟨⟨2, ![m, 1]⟩, a⟩, ⟨⟨2, ![m, 1]⟩, b⟩] h (ix2 e (1 : Fin 2)) = b (ix2 e (0 : Fin 1)) := by
  refine concatenate_pair_apply_right 1 a b h (ix2 e (1 : Fin 2)) rfl rfl (ix2 e (0 : Fin 1)) (fun ax hax => ?_) rfl
  match ax with
  | ⟨0, _⟩ => rfl
  | ⟨1, _⟩ => exact absurd rfl hax

end Cert.LibPointScatter

end
-- ==== Proof.Split.lean ====
/-
  The sparse matrix split at column 8192, edge by edge.

  An edge carries a row word, a column word and a value. A negative index is wrapped once by the extent of the axis it
  indexes (`wrap`); an index still outside the axis afterwards drops the edge. One dense matrix of 16384 columns takes
  every edge at (row, column). Its split form takes two matrices of 8192 columns: the low one takes the edges whose
  column is below 8192, at that column, and every other edge with value zero at column zero; the high one takes the
  edges whose column is at least 8192, at the column less 8192, and every other edge with value zero at column zero.
  For a column word that is not negative the two forms agree edge by edge: an edge contributes to entry (P, k) of the
  low matrix exactly what it contributes to entry (P, k) of the dense one, and to entry (P, k) of the high matrix what
  it contributes to entry (P, 8192 + k) of the dense one; an edge moved to column zero carries the value zero, which
  adds nothing. (For a negative column the forms differ: the wrap is by 16384 in one and by 8192 in the other.)
-/
import Idealize.ShloMosaic.PureOps.Ideal
import Idealize.ShloMosaic.Lib.ValueIdx
import Idealize.ShloMosaic.Lib.WordArith
import Idealize.ShloMosaic.Lib.Affine

noncomputable section

namespace Cert.Split

open Idealize.ShloMosaic Idealize.ShloMosaic.ValueIdx

/-- A negative index wrapped once by the extent `n`. -/
def wrap (n x : BitVec 32) : BitVec 32 := Scalar.select (IntOp.cmpi .slt x 0#32) (IntOp.addi x n) x

/-- An index that is not negative is not wrapped. -/
theorem wrap_of_nonneg (n x : BitVec 32) (h : 0 ≤ x.toInt) : wrap n x = x := by
  unfold wrap
  have h0 : IntOp.cmpi .slt x 0#32 = 0#1 := eq_zero_of_ne_one fun h1 => by
    have h2 := IntOp.cmpi_slt.1 h1
    have h3 : (0#32 : BitVec 32).toInt = 0 := by decide
    omega
  rw [h0, select_zero]

/-- The bit of "the column is below 8192". -/
def low (c : BitVec 32) : BitVec 1 := IntOp.cmpi .slt c 8192#32

theorem low_iff (c : BitVec 32) : low c = 1#1 ↔ c.toInt < 8192 := by
  unfold low
  rw [IntOp.cmpi_slt]
  have h3 : (8192#32 : BitVec 32).toInt = 8192 := by decide
  rw [h3]

/-- The low matrix's column and value of an edge. -/
def colLow (c : BitVec 32) : BitVec 32 := Scalar.select (low c) c 0#32
def valLow (c : BitVec 32) (v : EReal) : EReal := Scalar.select (low c) v 0
/-- The high matrix's column and value of an edge. -/
def colHigh (c : BitVec 32) : BitVec 32 := Scalar.select (low c) 0#32 (IntOp.subi c 8192#32)
def valHigh (c : BitVec 32) (v : EReal) : EReal := Scalar.select (low c) 0 v

/-- What an edge adds to entry (P, k) of the dense matrix, k below 8192, it adds to entry (P, k) of the low matrix. -/
theorem term_low (r c : BitVec 32) (v : EReal) (P : Int) (k : Fin 8192) (hc : 0 ≤ c.toInt) :
    (if (wrap 4096#32 r).toInt = P ∧ (wrap 16384#32 c).toInt = (k.val : Int) then v else 0)
      = (if (wrap 4096#32 r).toInt = P ∧ (wrap 8192#32 (colLow c)).toInt = (k.val : Int) then valLow c v else 0) := by
  rw [wrap_of_nonneg 16384#32 c hc]
  by_cases hl : low c = 1#1
  · unfold colLow valLow
    rw [hl, select_one, select_one, wrap_of_nonneg 8192#32 c hc]
  · have hz : low c = 0#1 := eq_zero_of_ne_one hl
    have hge : ¬ c.toInt < 8192 := fun h => hl ((low_iff c).2 h)
    unfold colLow valLow
    rw [hz, select_zero, select_zero, ite_self]
    refine if_neg fun h => ?_
    have := k.isLt
    omega

/-- What an edge adds to entry (P, 8192 + k) of the dense matrix it adds to entry (P, k) of the high matrix. -/
theorem term_high (r c : BitVec 32) (v : EReal) (P : Int) (k : Fin 8192) (hc : 0 ≤ c.toInt) :
    (if (wrap 4096#32 r).toInt = P ∧ (wrap 16384#32 c).toInt = ((8192 + k.val : Nat) : Int) then v else 0)
      = (if (wrap 4096#32 r).toInt = P ∧ (wrap 8192#32 (colHigh c)).toInt = (k.val : Int) then valHigh c v else 0) := by
  rw [wrap_of_nonneg 16384#32 c hc]
  by_cases hl : low c = 1#1
  · have hlt : c.toInt < 8192 := (low_iff c).1 hl
    unfold colHigh valHigh
    rw [hl, select_one, select_one, ite_self]
    refine if_neg fun h => ?_
    omega
  · have hz : low c = 0#1 := eq_zero_of_ne_one hl
    have hge : ¬ c.toInt < 8192 := fun h => hl ((low_iff c).2 h)
    have h8 : (8192#32 : BitVec 32).toInt = 8192 := by decide
    have hlt : c.toInt < 2 ^ 31 := by have := BitVec.toInt_lt (x := c); omega
    have hs : (IntOp.subi c 8192#32).toInt = c.toInt - 8192 := by
      unfold IntOp.subi
      rw [WordArith.toInt_sub_of_bounds c 8192#32 (by rw [h8]; omega) (by rw [h8]; omega), h8]
    unfold colHigh valHigh
    rw [hz, select_zero, select_zero, wrap_of_nonneg 8192#32 _ (by rw [hs]; omega), hs]
    refine if_congr ⟨fun h => ⟨h.1, by omega⟩, fun h => ⟨h.1, by omega⟩⟩ rfl rfl

/-- The last step: the two biases are added in different places. -/
theorem bias_order (a b c : EReal) : (a + c) + b = (a + b) + c := add_right_comm a c b

end Cert.Split

end
-- ==== Proof.LibDotSum.lean ====
/-
  A matrix product's contraction sum, re-indexed to a plain sum over its one contracted axis.

  For a dot of an `M × K` array with a `K × N` array that contracts the left operand's second axis
  against the right operand's first, the entry at `(p, q)` is the sum over the contraction index of
  `l (p, k) * r (k, q)`. The contraction index is a one-axis index of extent `K`; carrying the sum
  along the bijection with `Fin K` gives `∑ k : Fin K, l (ix2 p k) * r (ix2 k q)`.
  The coordinate facts of the dimension record are hypotheses, so that one statement serves every record
  of this plain form (for a literal record each holds by computation).
-/
import Idealize.ShloMosaic.PureOps.Ideal
import Idealize.ShloMosaic.PureOps.Dims
import Idealize.ShloMosaic.Lib.ValueIdx

noncomputable section

namespace Cert.LibDotSum

open Idealize.ShloMosaic Idealize.ShloMosaic.ValueIdx

/-- GENERAL LEMMA. For a dot record `d` on shapes `[M, K] × [K, N] → [M, N]` whose contraction shape has one
    axis of extent `K`, whose left index at `(j, k)` is `(j 0, k)` and whose right index is `(k, j 1)`, the
    contraction sum of `l` against `r` at the output index `j` is `∑ k : Fin K, l (j 0, k) * r (k, j 1)`. -/
theorem sum_contr_eq_sum_fin {M K N : Nat}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k)
      = ∑ k : Fin K, l (ix2 (j 0) k) * r (ix2 k (j 1)) := by
  rw [← Equiv.sum_comp (contrEquiv1 d K hrank hsize).symm]
  refine Finset.sum_congr rfl fun k _ => ?_
  have hk : (((contrEquiv1 d K hrank hsize).symm k) ⟨0, by omega⟩ : ℕ) = k.val :=
    contrEquiv1_symm_val d K hrank hsize k
  have el : d.lhsIdx j ((contrEquiv1 d K hrank hsize).symm k) = ix2 (j 0) k := by
    funext a
    apply Fin.ext
    match a with
    | ⟨0, _⟩ => exact hl0 j _
    | ⟨1, _⟩ => exact (hl1 j _).trans hk
  have er : d.rhsIdx j ((contrEquiv1 d K hrank hsize).symm k) = ix2 k (j 1) := by
    funext a
    apply Fin.ext
    match a with
    | ⟨0, _⟩ => exact (hr0 j _).trans hk
    | ⟨1, _⟩ => exact hr1 j _
  rw [el, er]
  rfl

end Cert.LibDotSum

end
-- ==== Proof.LibBlockMatmul.lean ====
/-
  GENERAL LEMMAS. One row tile of a matrix product against the whole product.

  A kernel that tiles only the rows of `X · W` computes, at grid point `t`, the product of a block of `tm` rows of `X`
  with the whole of `W`, accumulated into zero. At the exact values rounding an operand to a narrower format is the
  identity, a product into a zero accumulator is the plain contraction sum, and the host's `dot_general` is the same sum:
  so the entry `(p, q)` of the tile's product is the entry `(r, q)` of the whole product as soon as row `p` of the tile
  is row `r` of `X`. Both sums are carried to `∑ k : Fin K` by the re-indexing lemma for plain dot records; no law of the
  extended reals beyond the congruence of a sum is used, so nothing here asks for finiteness.
-/
import Idealize.ShloMosaic.PureOps.Ideal
import Idealize.ShloMosaic.PureOps.Ideal.Laws
import Idealize.ShloMosaic.PureOps.Dims
import Idealize.ShloMosaic.Lib.ValueIdx
import proofs.«181386_g31069793419385_cont_9to1_1561_2_alg».proof.Proof.LibDotSum

noncomputable section

namespace Cert.BlockMatmul

open Idealize.ShloMosaic Idealize.ShloMosaic.ValueIdx

/-- The product of two arrays into the zero accumulator, read at `j`, as the sum over the contracted axis. -/
theorem matmul_zero_fin {M K N : Nat} {φ₁ φ₂ : FTy}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (prec : Option ContractPrecision)
    (l : FVec Ideal (⟨2, ![M, K]⟩ : Shape) φ₁) (r : FVec Ideal (⟨2, ![K, N]⟩ : Shape) φ₂)
    (j : (⟨2, ![M, N]⟩ : Shape).Idx) :
    FloatOps.matmul d prec l r (constant (F := Ideal) (⟨2, ![M, N]⟩ : Shape) .f32 0x00000000#32) j
      = ∑ k : Fin K, (l (ix2 (j 0) k) : EReal) * (r (ix2 k (j 1)) : EReal) :=
  (Ideal.matmul_constant_zero_apply d prec l r j).trans
    (Cert.LibDotSum.sum_contr_eq_sum_fin d hrank hsize hl0 hl1 hr0 hr1 l r j)

/-- The host's `dot_general` of two arrays, read at `j`, as the sum over the contracted axis. -/
theorem dotGeneral_fin {M K N : Nat} {φ₁ φ₂ : FTy}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (prec : Option ContractPrecision) (sched : HostSchedule)
    (l : FVec Ideal (⟨2, ![M, K]⟩ : Shape) φ₁) (r : FVec Ideal (⟨2, ![K, N]⟩ : Shape) φ₂)
    (j : (⟨2, ![M, N]⟩ : Shape).Idx) :
    FloatOps.dotGeneral d prec sched l r j
      = ∑ k : Fin K, (l (ix2 (j 0) k) : EReal) * (r (ix2 k (j 1)) : EReal) :=
  (Ideal.dotGeneral_apply d prec sched l r j).trans
    (Cert.LibDotSum.sum_contr_eq_sum_fin d hrank hsize hl0 hl1 hr0 hr1 l r j)

/-- Two contraction sums over `Fin K` agree when their rows and columns do, term by term: entry `y` of a tile's product is
    entry `i` of the whole product when row `y 0` of the tile is row `i 0` of the whole left operand and column `y 1` of
    the tile's right operand is column `i 1` of the whole right operand. -/
theorem sum_rows_cols {tm M K N : Nat}
    (x0 : (⟨2, ![tm, K]⟩ : Shape).Idx → EReal) (x1 : (⟨2, ![K, N]⟩ : Shape).Idx → EReal)
    (X : (⟨2, ![M, K]⟩ : Shape).Idx → EReal) (W : (⟨2, ![K, N]⟩ : Shape).Idx → EReal)
    (y : (⟨2, ![tm, N]⟩ : Shape).Idx) (i : (⟨2, ![M, N]⟩ : Shape).Idx)
    (hx0 : ∀ k : Fin K, x0 (ix2 (y 0) k) = X (ix2 (i 0) k))
    (hx1 : ∀ k : Fin K, x1 (ix2 k (y 1)) = W (ix2 k (i 1))) :
    ∑ k : Fin K, x0 (ix2 (y 0) k) * x1 (ix2 k (y 1)) = ∑ k : Fin K, X (ix2 (i 0) k) * W (ix2 k (i 1)) :=
  Finset.sum_congr rfl fun k _ => by rw [hx0 k, hx1 k]

end Cert.BlockMatmul

end
-- ==== Proof.KernelTile.lean ====
/-
  One row tile of the fused product, entry by entry.

  At a grid point the body holds a tile of 128 rows of the dense [4096, 16384] matrix, the three weight matrices whole
  and the two bias rows. Its columns below 8192 meet the first weight matrix; its columns from 8192 on meet the second,
  the bias row of length 256 is added, and the [128, 256] result meets the third weight matrix; the two [128, 1024]
  products are added and the bias row of length 1024 is added last. At the exact values a change of float format is
  the identity and a product into a zero accumulator is the plain contraction sum, so entry (p, q) of what the body
  stores is

      (Σ_k x(p, k)·wf(k, q)  +  Σ_j (Σ_k x(p, 8192 + k)·wr1(k, j) + br(0, j))·wr2(j, q))  +  bf(0, q).
-/
import proofs.«181386_g31069793419385_cont_9to1_1561_2_alg».proof.Proof.Gen.KernelIdeal.Skeleton
import proofs.«181386_g31069793419385_cont_9to1_1561_2_alg».proof.Proof.LibBlockMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-! ## The three dot records: plain [M, K] × [K, N] products -/

theorem dA_l0 (i : S128x1024.Idx) (k : dot_S128x8192_S8192x1024_S128x1024_1_0_0_1_n_n.contr.Idx) : (dot_S128x8192_S8192x1024_S128x1024_1_0_0_1_n_n.lhsIdx i k 0).val = (i 0).val := by
  unfold DotDims.lhsIdx
  rw [dif_neg (show ¬(0 : Fin S128x8192.rank) ∈ dot_S128x8192_S8192x1024_S128x1024_1_0_0_1_n_n.lhsBatch by decide), dif_pos (show (0 : Fin S128x8192.rank) ∈ dot_S128x8192_S8192x1024_S128x1024_1_0_0_1_n_n.lhsNonContracting by decide)]
  rfl
theorem dA_l1 (i : S128x1024.Idx) (k : dot_S128x8192_S8192x1024_S128x1024_1_0_0_1_n_n.contr.Idx) : (dot_S128x8192_S8192x1024_S128x1024_1_0_0_1_n_n.lhsIdx i k 1).val = (k ⟨0, by decide⟩).val :=
  dot_S128x8192_S8192x1024_S128x1024_1_0_0_1_n_n.lhsIdx_val_of_single rfl i k
theorem dA_r0 (i : S128x1024.Idx) (k : dot_S128x8192_S8192x1024_S128x1024_1_0_0_1_n_n.contr.Idx) : (dot_S128x8192_S8192x1024_S128x1024_1_0_0_1_n_n.rhsIdx i k 0).val = (k ⟨0, by decide⟩).val :=
  dot_S128x8192_S8192x1024_S128x1024_1_0_0_1_n_n.rhsIdx_val_of_single rfl i k
theorem dA_r1 (i : S128x1024.Idx) (k : dot_S128x8192_S8192x1024_S128x1024_1_0_0_1_n_n.contr.Idx) : (dot_S128x8192_S8192x1024_S128x1024_1_0_0_1_n_n.rhsIdx i k 1).val = (i 1).val := by
  unfold DotDims.rhsIdx
  rw [dif_neg (show ¬(1 : Fin S8192x1024.rank) ∈ dot_S128x8192_S8192x1024_S128x1024_1_0_0_1_n_n.rhsBatch by decide), dif_pos (show (1 : Fin S8192x1024.rank) ∈ dot_S128x8192_S8192x1024_S128x1024_1_0_0_1_n_n.rhsNonContracting by decide)]
  rfl

theorem dB_l0 (i : S128x256.Idx) (k : dot_S128x8192_S8192x256_S128x256_1_0_0_1_n_n.contr.Idx) : (dot_S128x8192_S8192x256_S128x256_1_0_0_1_n_n.lhsIdx i k 0).val = (i 0).val := by
  unfold DotDims.lhsIdx
  rw [dif_neg (show ¬(0 : Fin S128x8192.rank) ∈ dot_S128x8192_S8192x256_S128x256_1_0_0_1_n_n.lhsBatch by decide), dif_pos (show (0 : Fin S128x8192.rank) ∈ dot_S128x8192_S8192x256_S128x256_1_0_0_1_n_n.lhsNonContracting by decide)]
  rfl
theorem dB_l1 (i : S128x256.Idx) (k : dot_S128x8192_S8192x256_S128x256_1_0_0_1_n_n.contr.Idx) : (dot_S128x8192_S8192x256_S128x256_1_0_0_1_n_n.lhsIdx i k 1).val = (k ⟨0, by decide⟩).val :=
  dot_S128x8192_S8192x256_S128x256_1_0_0_1_n_n.lhsIdx_val_of_single rfl i k
theorem dB_r0 (i : S128x256.Idx) (k : dot_S128x8192_S8192x256_S128x256_1_0_0_1_n_n.contr.Idx) : (dot_S128x8192_S8192x256_S128x256_1_0_0_1_n_n.rhsIdx i k 0).val = (k ⟨0, by decide⟩).val :=
  dot_S128x8192_S8192x256_S128x256_1_0_0_1_n_n.rhsIdx_val_of_single rfl i k
theorem dB_r1 (i : S128x256.Idx) (k : dot_S128x8192_S8192x256_S128x256_1_0_0_1_n_n.contr.Idx) : (dot_S128x8192_S8192x256_S128x256_1_0_0_1_n_n.rhsIdx i k 1).val = (i 1).val := by
  unfold DotDims.rhsIdx
  rw [dif_neg (show ¬(1 : Fin S8192x256.rank) ∈ dot_S128x8192_S8192x256_S128x256_1_0_0_1_n_n.rhsBatch by decide), dif_pos (show (1 : Fin S8192x256.rank) ∈ dot_S128x8192_S8192x256_S128x256_1_0_0_1_n_n.rhsNonContracting by decide)]
  rfl

theorem dC_l0 (i : S128x1024.Idx) (k : dot_S128x256_S256x1024_S128x1024_1_0_0_1_n_n.contr.Idx) : (dot_S128x256_S256x1024_S128x1024_1_0_0_1_n_n.lhsIdx i k 0).val = (i 0).val := by
  unfold DotDims.lhsIdx
  rw [dif_neg (show ¬(0 : Fin S128x256.rank) ∈ dot_S128x256_S256x1024_S128x1024_1_0_0_1_n_n.lhsBatch by decide), dif_pos (show (0 : Fin S128x256.rank) ∈ dot_S128x256_S256x1024_S128x1024_1_0_0_1_n_n.lhsNonContracting by decide)]
  rfl
theorem dC_l1 (i : S128x1024.Idx) (k : dot_S128x256_S256x1024_S128x1024_1_0_0_1_n_n.contr.Idx) : (dot_S128x256_S256x1024_S128x1024_1_0_0_1_n_n.lhsIdx i k 1).val = (k ⟨0, by decide⟩).val :=
  dot_S128x256_S256x1024_S128x1024_1_0_0_1_n_n.lhsIdx_val_of_single rfl i k
theorem dC_r0 (i : S128x1024.Idx) (k : dot_S128x256_S256x1024_S128x1024_1_0_0_1_n_n.contr.Idx) : (dot_S128x256_S256x1024_S128x1024_1_0_0_1_n_n.rhsIdx i k 0).val = (k ⟨0, by decide⟩).val :=
  dot_S128x256_S256x1024_S128x1024_1_0_0_1_n_n.rhsIdx_val_of_single rfl i k
theorem dC_r1 (i : S128x1024.Idx) (k : dot_S128x256_S256x1024_S128x1024_1_0_0_1_n_n.contr.Idx) : (dot_S128x256_S256x1024_S128x1024_1_0_0_1_n_n.rhsIdx i k 1).val = (i 1).val := by
  unfold DotDims.rhsIdx
  rw [dif_neg (show ¬(1 : Fin S256x1024.rank) ∈ dot_S128x256_S256x1024_S128x1024_1_0_0_1_n_n.rhsBatch by decide), dif_pos (show (1 : Fin S256x1024.rank) ∈ dot_S128x256_S256x1024_S128x1024_1_0_0_1_n_n.rhsNonContracting by decide)]
  rfl

/-- Column `k` of the low half of a 16384-column row. -/
abbrev lo (k : Fin 8192) : Fin 16384 := ⟨k.val, by omega⟩
/-- Column `k` of the high half of a 16384-column row. -/
abbrev hi (k : Fin 8192) : Fin 16384 := ⟨8192 + k.val, by omega⟩

/-- The low half of the tile, cut out after the change of format, reads the tile at the same row and column. -/
theorem low_half (v0 : Vec Ideal S128x16384 .f32) (p : Fin 128) (k : Fin 8192) :
    (extractStridedSlice S128x8192 ![0, 0] (truncf (F := Ideal) .bf16 v0 Facts₀.bitsLt_bf16_f32)
      Facts₀.slices_S128x16384_o0_0_S128x8192 (ix2 p k) : EReal) = v0 (ix2 p (lo k)) := by
  rw [slice2_axis1_apply 0 _ Facts₀.slices_S128x16384_o0_0_S128x8192 p k (lo k) (by show k.val = 0 + k.val; omega)]
  rw [truncf_apply]

/-- The high half reads the tile 8192 columns further on. -/
theorem high_half (v0 : Vec Ideal S128x16384 .f32) (p : Fin 128) (k : Fin 8192) :
    (extractStridedSlice S128x8192 ![0, 8192] (truncf (F := Ideal) .bf16 v0 Facts₀.bitsLt_bf16_f32)
      Facts₀.slices_S128x16384_o0_8192_S128x8192 (ix2 p k) : EReal) = v0 (ix2 p (hi k)) := by
  rw [slice2_axis1_apply 8192 _ Facts₀.slices_S128x16384_o0_8192_S128x8192 p k (hi k) rfl]
  rw [truncf_apply]

/-- The three products into a zero accumulator, read at (p, q), as sums over the contracted axis. -/
theorem mmA (l : FVec Ideal S128x8192 .bf16) (r : FVec Ideal S8192x1024 .bf16) (p : Fin 128) (q : Fin 1024) :
    FloatOps.matmul dot_S128x8192_S8192x1024_S128x1024_1_0_0_1_n_n none l r (constant (F := Ideal) S128x1024 .f32 0x00000000#32) (ix2 p q)
      = ∑ k : Fin 8192, (l (ix2 p k) : EReal) * (r (ix2 k q) : EReal) :=
  Cert.BlockMatmul.matmul_zero_fin dot_S128x8192_S8192x1024_S128x1024_1_0_0_1_n_n rfl rfl dA_l0 dA_l1 dA_r0 dA_r1 none l r (ix2 p q)

theorem mmB (l : FVec Ideal S128x8192 .bf16) (r : FVec Ideal S8192x256 .bf16) (p : Fin 128) (j : Fin 256) :
    FloatOps.matmul dot_S128x8192_S8192x256_S128x256_1_0_0_1_n_n none l r (constant (F := Ideal) S128x256 .f32 0x00000000#32) (ix2 p j)
      = ∑ k : Fin 8192, (l (ix2 p k) : EReal) * (r (ix2 k j) : EReal) :=
  Cert.BlockMatmul.matmul_zero_fin dot_S128x8192_S8192x256_S128x256_1_0_0_1_n_n rfl rfl dB_l0 dB_l1 dB_r0 dB_r1 none l r (ix2 p j)

theorem mmC (l : FVec Ideal S128x256 .bf16) (r : FVec Ideal S256x1024 .bf16) (p : Fin 128) (q : Fin 1024) :
    FloatOps.matmul dot_S128x256_S256x1024_S128x1024_1_0_0_1_n_n none l r (constant (F := Ideal) S128x1024 .f32 0x00000000#32) (ix2 p q)
      = ∑ j : Fin 256, (l (ix2 p j) : EReal) * (r (ix2 j q) : EReal) :=
  Cert.BlockMatmul.matmul_zero_fin dot_S128x256_S256x1024_S128x1024_1_0_0_1_n_n rfl rfl dC_l0 dC_l1 dC_r0 dC_r1 none l r (ix2 p q)

/-- Entry (p, q) of what the body stores, from the blocks it loaded. -/
theorem pay_apply (v0 : Vec Ideal S128x16384 .f32) (v5 : Vec Ideal S8192x1024 .bf16) (v8 : Vec Ideal S8192x256 .bf16)
    (v11 : Vec Ideal S1x256 .f32) (v16 : Vec Ideal S256x1024 .bf16) (v20 : Vec Ideal S1x1024 .f32) (p : Fin 128) (q : Fin 1024) :
    k0_pay1 (F := Ideal) v0 v5 v8 v11 v16 v20 (ix2 p q)
      = ((∑ k : Fin 8192, (v0 (ix2 p (lo k)) : EReal) * v5 (ix2 k q))
          + ∑ j : Fin 256, ((∑ k : Fin 8192, (v0 (ix2 p (hi k)) : EReal) * v8 (ix2 k j)) + v11 (ix2 (0 : Fin 1) j)) * v16 (ix2 j q))
        + v20 (ix2 (0 : Fin 1) q) := by
  unfold k0_pay1
  simp only [matmul, shapeCast_self]
  rw [addf_apply, addf_apply, mmA, mmC, broadcastTo_1b_ab_apply]
  refine congrArg₂ (· + ·) (congrArg₂ (· + ·) ?_ ?_) rfl
  · refine Finset.sum_congr rfl fun k _ => ?_
    rw [low_half]
  · refine Finset.sum_congr rfl fun j _ => ?_
    rw [truncf_apply, addf_apply, mmB, broadcastTo_1b_ab_apply]
    refine congrArg (· * _) (congrArg (· + _) ?_)
    refine Finset.sum_congr rfl fun k _ => ?_
    rw [high_half]

end Cert.KernelIdeal.Tile

end
-- ==== Proof.RefSparse.lean ====
/-
  The reference's two scatter-added matrices, entry by entry.

  The reference masks the edges by "column below 8192": the low matrix takes a masked-out edge with value zero at column
  zero, the high matrix the same for a masked-in edge, and the high matrix's columns are the column words less 8192. Rows
  and columns are wrapped once when negative (rows by 4096, columns by 8192) and an edge outside the matrix is dropped.
  Entry (P, k) of either matrix is the zero it starts from plus the sum over all edges of the edge's value where the
  edge's (row, column) is (P, k).
-/
import proofs.«181386_g31069793419385_cont_9to1_1561_2_alg».proof.Proof.Gen.ReferenceIdeal.Read
import proofs.«181386_g31069793419385_cont_9to1_1561_2_alg».proof.Proof.LibPointScatter
import proofs.«181386_g31069793419385_cont_9to1_1561_2_alg».proof.Proof.Split
import Idealize.ShloMosaic.Lib.ValueIdx
import Idealize.ShloMosaic.PureOps.Ideal.Laws

noncomputable section

namespace Cert.ReferenceIdeal.Sparse

open Cert.ReferenceIdeal Cert.ReferenceIdeal.Gen Cert.ReferenceIdeal.Read Idealize.ShloMosaic Idealize.ShloMosaic.ValueIdx
open Cert.Split Cert.LibPointScatter

/-! ## The scatter record: one (row, column) point per edge, no window -/

theorem sc_s0 (e : Fin 671088) (idx : IVec S671088x2 32) : scatter_S4096x8192_S671088x2_S671088_n_01_01_1.start (ix1 e) idx 0 = (idx (ix2 e (0 : Fin 2))).toInt := by
  unfold ScatterDims.start
  rw [dif_pos (show (0 : Fin S4096x8192.rank) ∈ scatter_S4096x8192_S671088x2_S671088_n_01_01_1.scatterDimsToOperandDims by decide)]
  refine congrArg (fun i => (idx i).toInt) (funext fun b => Fin.ext ?_)
  match b with
  | ⟨0, _⟩ => rfl
  | ⟨1, _⟩ => rfl
theorem sc_s1 (e : Fin 671088) (idx : IVec S671088x2 32) : scatter_S4096x8192_S671088x2_S671088_n_01_01_1.start (ix1 e) idx 1 = (idx (ix2 e (1 : Fin 2))).toInt := by
  unfold ScatterDims.start
  rw [dif_pos (show (1 : Fin S4096x8192.rank) ∈ scatter_S4096x8192_S671088x2_S671088_n_01_01_1.scatterDimsToOperandDims by decide)]
  refine congrArg (fun i => (idx i).toInt) (funext fun b => Fin.ext ?_)
  match b with
  | ⟨0, _⟩ => rfl
  | ⟨1, _⟩ => rfl
theorem sc_w0 (e : Fin 671088) : scatter_S4096x8192_S671088x2_S671088_n_01_01_1.window (ix1 e) 0 = 0 := by
  unfold ScatterDims.window
  rw [dif_neg (show ¬ (0 : Fin S4096x8192.rank) ∈ scatter_S4096x8192_S671088x2_S671088_n_01_01_1.sKept by decide)]
theorem sc_w1 (e : Fin 671088) : scatter_S4096x8192_S671088x2_S671088_n_01_01_1.window (ix1 e) 1 = 0 := by
  unfold ScatterDims.window
  rw [dif_neg (show ¬ (1 : Fin S4096x8192.rank) ∈ scatter_S4096x8192_S671088x2_S671088_n_01_01_1.sKept by decide)]

variable (x0 : FVec Ideal S671088 .f32) (x6 x7 : IVec S671088 32)

/-- Entry (P, k) of the low matrix. -/
theorem low_apply (P : Fin 4096) (k : Fin 8192) :
    val_main_v18 (F := Ideal) x0 x6 x7 (ix2 P k) = ∑ e : Fin 671088,
      if (wrap 4096#32 (x6 (ix1 e))).toInt = (P.val : Int) ∧ (wrap 8192#32 (colLow (x7 (ix1 e)))).toInt = (k.val : Int)
        then valLow (x7 (ix1 e)) (x0 (ix1 e)) else 0 := by
  unfold val_main_v18
  rw [host_scatterAdd_points scatter_S4096x8192_S671088x2_S671088_n_01_01_1 sc_s0 sc_s1 sc_w0 sc_w1]
  have z : val_main_v4 (F := Ideal) (ix2 P k) = 0 := Ideal.ofBits_zero_f32
  rw [z, zero_add]
  refine Finset.sum_congr rfl fun e _ => ?_
  have e0 : val_main_v17 (F := Ideal) x6 x7 (ix2 e (0 : Fin 2)) = wrap 4096#32 (x6 (ix1 e)) := by
    unfold val_main_v17 val_main_v15
    rw [pair_left, column_apply]
    rfl
  have e1 : val_main_v17 (F := Ideal) x6 x7 (ix2 e (1 : Fin 2)) = wrap 8192#32 (colLow (x7 (ix1 e))) := by
    unfold val_main_v17 val_main_v16
    rw [pair_right, column_apply]
    rfl
  have ev : val_main_v2 (F := Ideal) x0 x7 (ix1 e) = valLow (x7 (ix1 e)) (x0 (ix1 e)) := by
    show Scalar.select (low (x7 (ix1 e))) (x0 (ix1 e)) (Ideal.ofBits .f32 0x00000000#32) = _
    rw [Ideal.ofBits_zero_f32]
    rfl
  rw [e0, e1, ev]

/-- Entry (P, k) of the high matrix. -/
theorem high_apply (P : Fin 4096) (k : Fin 8192) :
    val_main_v37 (F := Ideal) x0 x6 x7 (ix2 P k) = ∑ e : Fin 671088,
      if (wrap 4096#32 (x6 (ix1 e))).toInt = (P.val : Int) ∧ (wrap 8192#32 (colHigh (x7 (ix1 e)))).toInt = (k.val : Int)
        then valHigh (x7 (ix1 e)) (x0 (ix1 e)) else 0 := by
  unfold val_main_v37
  rw [host_scatterAdd_points scatter_S4096x8192_S671088x2_S671088_n_01_01_1 sc_s0 sc_s1 sc_w0 sc_w1]
  have z : val_main_v23 (F := Ideal) (ix2 P k) = 0 := Ideal.ofBits_zero_f32
  rw [z, zero_add]
  refine Finset.sum_congr rfl fun e _ => ?_
  have e0 : val_main_v36 (F := Ideal) x6 x7 (ix2 e (0 : Fin 2)) = wrap 4096#32 (x6 (ix1 e)) := by
    unfold val_main_v36 val_main_v34
    rw [pair_left, column_apply]
    rfl
  have e1 : val_main_v36 (F := Ideal) x6 x7 (ix2 e (1 : Fin 2)) = wrap 8192#32 (colHigh (x7 (ix1 e))) := by
    unfold val_main_v36 val_main_v35
    rw [pair_right, column_apply]
    rfl
  have ev : val_main_v19 (F := Ideal) x0 x7 (ix1 e) = valHigh (x7 (ix1 e)) (x0 (ix1 e)) := by
    show Scalar.select (low (x7 (ix1 e))) (Ideal.ofBits .f32 0x00000000#32) (x0 (ix1 e)) = _
    rw [Ideal.ofBits_zero_f32]
    rfl
  rw [e0, e1, ev]

end Cert.ReferenceIdeal.Sparse

end
-- ==== Proof.Bridge.lean ====
/-
  One entry of a row tile of the kernel is the reference's entry.

  Entry (P, q) of the reference's result is
      (Σ_k Xf(P, k)·wf(k, q) + bf(q))  +  Σ_j (Σ_k Xr(P, k)·wr1(k, j) + br(j))·wr2(j, q),
  with Xf, Xr the low and the high scatter-added matrices. Entry (p, q) of what a tile's body stores is
      (Σ_k x(p, k)·wf(k, q)  +  Σ_j (Σ_k x(p, 8192 + k)·wr1(k, j) + br(j))·wr2(j, q))  +  bf(q),
  with x the tile's rows of the one dense scatter-added matrix. When row p of the tile is row P of the dense matrix,
  x(p, k) = Xf(P, k) and x(p, 8192 + k) = Xr(P, k) edge by edge (the column words being non-negative), and what is left
  is the order in which the two bias terms are added, which addition on the extended reals does not see.
-/
import proofs.«181386_g31069793419385_cont_9to1_1561_2_alg».proof.Proof.KernelTile
import proofs.«181386_g31069793419385_cont_9to1_1561_2_alg».proof.Proof.RefSparse
import proofs.«181386_g31069793419385_cont_9to1_1561_2_alg».proof.Proof.Split
import Idealize.ShloMosaic.Lib.ValueIdx
import Idealize.ShloMosaic.PureOps.Ideal.Laws

noncomputable section

namespace Cert.Bridge

open Idealize.ShloMosaic Idealize.ShloMosaic.ValueIdx Cert.Split
open Cert.ReferenceIdeal Cert.ReferenceIdeal.Read Cert.ReferenceIdeal.Sparse

/-! ## The reference's composed index functions, as coordinates -/

theorem lidx38 (P : Fin 4096) (q : Fin 1024) (k : Fin 8192) : lidx_main_v38 (ix2 P q) k = ix2 P k :=
  funext fun a => Fin.ext (by match a with | ⟨0, _⟩ => rfl | ⟨1, _⟩ => rfl)
theorem ridx38 (P : Fin 4096) (q : Fin 1024) (k : Fin 8192) : ridx_main_v38 (ix2 P q) k = ix2 k q :=
  funext fun a => Fin.ext (by match a with | ⟨0, _⟩ => rfl | ⟨1, _⟩ => rfl)
theorem lidx42 (P : Fin 4096) (j : Fin 256) (k : Fin 8192) : lidx_main_v42 (ix2 P j) k = ix2 P k :=
  funext fun a => Fin.ext (by match a with | ⟨0, _⟩ => rfl | ⟨1, _⟩ => rfl)
theorem ridx42 (P : Fin 4096) (j : Fin 256) (k : Fin 8192) : ridx_main_v42 (ix2 P j) k = ix2 k j :=
  funext fun a => Fin.ext (by match a with | ⟨0, _⟩ => rfl | ⟨1, _⟩ => rfl)
theorem lidx46 (P : Fin 4096) (q : Fin 1024) (j : Fin 256) : lidx_main_v46 (ix2 P q) j = ix2 P j :=
  funext fun a => Fin.ext (by match a with | ⟨0, _⟩ => rfl | ⟨1, _⟩ => rfl)
theorem ridx46 (P : Fin 4096) (q : Fin 1024) (j : Fin 256) : ridx_main_v46 (ix2 P q) j = ix2 j q :=
  funext fun a => Fin.ext (by match a with | ⟨0, _⟩ => rfl | ⟨1, _⟩ => rfl)
theorem bias40 (P : Fin 4096) (q : Fin 1024) : idx_main_v39 (idx_main_v40 (ix2 P q)) = ix1 q :=
  funext fun a => Fin.ext (by match a with | ⟨0, _⟩ => rfl)
theorem bias44 (P : Fin 4096) (j : Fin 256) : idx_main_v43 (idx_main_v44 (ix2 P j)) = ix1 j :=
  funext fun a => Fin.ext (by match a with | ⟨0, _⟩ => rfl)

variable (x0 : FVec Ideal S671088 .f32) (x1 : FVec Ideal S8192x1024 .f32) (x2 : FVec Ideal S1024 .f32)
  (x3 : FVec Ideal S8192x256 .f32) (x4 : FVec Ideal S256 .f32) (x5 : FVec Ideal S256x1024 .f32) (x6 x7 : IVec S671088 32)

/-- Entry (P, q) of the reference's result, as sums. -/
theorem ref_apply (P : Fin 4096) (q : Fin 1024) :
    val_main_v47 (F := Ideal) x0 x1 x2 x3 x4 x5 x6 x7 (ix2 P q)
      = ((∑ k : Fin 8192, val_main_v18 (F := Ideal) x0 x6 x7 (ix2 P k) * x1 (ix2 k q)) + x2 (ix1 q))
        + ∑ j : Fin 256, ((∑ k : Fin 8192, val_main_v37 (F := Ideal) x0 x6 x7 (ix2 P k) * x3 (ix2 k j)) + x4 (ix1 j)) * x5 (ix2 j q) := by
  rw [val_main_v47_apply, val_main_v41_apply, val_main_v38_apply, val_main_v40_apply, val_main_v39_apply, val_main_v46_apply]
  simp only [lidx38, ridx38, lidx46, ridx46, bias40, val_main_v45_apply, val_main_v42_apply, val_main_v44_apply,
    val_main_v43_apply, lidx42, ridx42, bias44]
  rfl

/-- The dense matrix's entry (P, c): the sum over the edges of the value where the edge's point is (P, c). -/
def dense (P : Fin 4096) (c : Fin 16384) : EReal := ∑ e : Fin 671088,
  if (wrap 4096#32 (x6 (ix1 e))).toInt = (P.val : Int) ∧ (wrap 16384#32 (x7 (ix1 e))).toInt = (c.val : Int) then x0 (ix1 e) else 0

/-- The dense matrix's low columns are the low matrix, its high columns the high matrix. -/
theorem dense_low (hc : ∀ e : Fin 671088, 0 ≤ (x7 (ix1 e)).toInt) (P : Fin 4096) (k : Fin 8192) :
    dense x0 x6 x7 P (Cert.KernelIdeal.Tile.lo k) = val_main_v18 (F := Ideal) x0 x6 x7 (ix2 P k) := by
  rw [low_apply]
  exact Finset.sum_congr rfl fun e _ => term_low _ _ _ _ k (hc e)

theorem dense_high (hc : ∀ e : Fin 671088, 0 ≤ (x7 (ix1 e)).toInt) (P : Fin 4096) (k : Fin 8192) :
    dense x0 x6 x7 P (Cert.KernelIdeal.Tile.hi k) = val_main_v37 (F := Ideal) x0 x6 x7 (ix2 P k) := by
  rw [high_apply]
  exact Finset.sum_congr rfl fun e _ => term_high _ _ _ _ k (hc e)

/-- Entry (p, q) of what a tile's body stores, when the tile holds row P of the dense matrix in its row p, the weights
    whole and the bias rows, is entry (P, q) of the reference's result. -/
theorem entry_eq (hc : ∀ e : Fin 671088, 0 ≤ (x7 (ix1 e)).toInt)
    (B0 : Vec Ideal Cert.KernelIdeal.S128x16384 .f32) (B1 : Vec Ideal Cert.KernelIdeal.S8192x1024 .bf16)
    (B2 : Vec Ideal Cert.KernelIdeal.S8192x256 .bf16) (B3 : Vec Ideal Cert.KernelIdeal.S256x1024 .bf16)
    (B4 : Vec Ideal Cert.KernelIdeal.S1x1024 .f32) (B5 : Vec Ideal Cert.KernelIdeal.S1x256 .f32)
    (P : Fin 4096) (p : Fin 128) (q : Fin 1024)
    (h0 : ∀ c : Fin 16384, (B0 (ix2 p c) : EReal) = dense x0 x6 x7 P c)
    (h1 : ∀ (k : Fin 8192) (q : Fin 1024), (B1 (ix2 k q) : EReal) = x1 (ix2 k q))
    (h2 : ∀ (k : Fin 8192) (j : Fin 256), (B2 (ix2 k j) : EReal) = x3 (ix2 k j))
    (h3 : ∀ (j : Fin 256) (q : Fin 1024), (B3 (ix2 j q) : EReal) = x5 (ix2 j q))
    (h4 : ∀ q : Fin 1024, (B4 (ix2 (0 : Fin 1) q) : EReal) = x2 (ix1 q))
    (h5 : ∀ j : Fin 256, (B5 (ix2 (0 : Fin 1) j) : EReal) = x4 (ix1 j)) :
    Cert.KernelIdeal.Gen.k0_pay1 (F := Ideal) B0 B1 B2 B5 B3 B4 (ix2 p q)
      = val_main_v47 (F := Ideal) x0 x1 x2 x3 x4 x5 x6 x7 (ix2 P q) := by
  rw [Cert.KernelIdeal.Tile.pay_apply, ref_apply, bias_order, h4]
  refine congrArg₂ (· + ·) (congrArg (· + _) ?_) ?_
  · refine Finset.sum_congr rfl fun k _ => ?_
    rw [h0, h1, dense_low x0 x6 x7 hc]
  · refine Finset.sum_congr rfl fun j _ => ?_
    rw [h3, h5]
    refine congrArg (· * _) (congrArg (· + _) ?_)
    refine Finset.sum_congr rfl fun k _ => ?_
    rw [h0, h2, dense_high x0 x6 x7 hc]

end Cert.Bridge

end
-- ==== Proof.KernelArrays.lean ====
/-
  The arrays the region finds, as functions of the arguments.

  Before the region the host builds the dense [4096, 16384] matrix by a scatter-add of the edge values into zeros at
  the (row, column) points (each index wrapped once when negative: rows by 4096, columns by 16384), rounds the three
  weight matrices to the narrower format (the identity at the exact values) and reshapes the two bias vectors to one-row
  matrices. Entry (P, c) of the dense matrix is the sum over the edges of the value where the edge's point is (P, c).
-/
import proofs.«181386_g31069793419385_cont_9to1_1561_2_alg».proof.Proof.Gen.KernelIdeal.Frame
import proofs.«181386_g31069793419385_cont_9to1_1561_2_alg».proof.Proof.LibPointScatter
import proofs.«181386_g31069793419385_cont_9to1_1561_2_alg».proof.Proof.Split
import proofs.«181386_g31069793419385_cont_9to1_1561_2_alg».proof.Proof.Bridge
import Idealize.ShloMosaic.Lib.StableHlo.Run
import Idealize.ShloMosaic.Lib.ValueIdx
import Idealize.ShloMosaic.Lib.ValueLayout
import Idealize.ShloMosaic.PureOps.Ideal.Laws

noncomputable section

namespace Cert.KernelIdeal.Arrays

open Cert.KernelIdeal Cert.KernelIdeal.Gen Idealize.ShloMosaic Idealize.ShloMosaic.TcCoe Idealize.SL.Sem Idealize.ShloMosaic.StableHlo
open Idealize.ShloMosaic.ValueIdx Cert.Split Cert.LibPointScatter

/-! ## The scatter record: one (row, column) point per edge, no window -/

theorem sk_s0 (e : Fin 671088) (idx : IVec S671088x2 32) : scatter_S4096x16384_S671088x2_S671088_n_01_01_1.start (ix1 e) idx 0 = (idx (ix2 e (0 : Fin 2))).toInt := by
  unfold ScatterDims.start
  rw [dif_pos (show (0 : Fin S4096x16384.rank) ∈ scatter_S4096x16384_S671088x2_S671088_n_01_01_1.scatterDimsToOperandDims by decide)]
  refine congrArg (fun i => (idx i).toInt) (funext fun b => Fin.ext ?_)
  match b with
  | ⟨0, _⟩ => rfl
  | ⟨1, _⟩ => rfl
theorem sk_s1 (e : Fin 671088) (idx : IVec S671088x2 32) : scatter_S4096x16384_S671088x2_S671088_n_01_01_1.start (ix1 e) idx 1 = (idx (ix2 e (1 : Fin 2))).toInt := by
  unfold ScatterDims.start
  rw [dif_pos (show (1 : Fin S4096x16384.rank) ∈ scatter_S4096x16384_S671088x2_S671088_n_01_01_1.scatterDimsToOperandDims by decide)]
  refine congrArg (fun i => (idx i).toInt) (funext fun b => Fin.ext ?_)
  match b with
  | ⟨0, _⟩ => rfl
  | ⟨1, _⟩ => rfl
theorem sk_w0 (e : Fin 671088) : scatter_S4096x16384_S671088x2_S671088_n_01_01_1.window (ix1 e) 0 = 0 := by
  unfold ScatterDims.window
  rw [dif_neg (show ¬ (0 : Fin S4096x16384.rank) ∈ scatter_S4096x16384_S671088x2_S671088_n_01_01_1.sKept by decide)]
theorem sk_w1 (e : Fin 671088) : scatter_S4096x16384_S671088x2_S671088_n_01_01_1.window (ix1 e) 1 = 0 := by
  unfold ScatterDims.window
  rw [dif_neg (show ¬ (1 : Fin S4096x16384.rank) ∈ scatter_S4096x16384_S671088x2_S671088_n_01_01_1.sKept by decide)]

/-- An index vector with each negative entry wrapped once by `n`. -/
def wrapVec (n : BitVec 32) (x : IVec S671088 32) : IVec S671088 32 :=
  select (cmpi .slt x (broadcastInDim S671088 ![] Facts₀.bcast_S_S671088 (constantI S_ 32 0#32)))
    (addi x (broadcastInDim S671088 ![] Facts₀.bcast_S_S671088 (constantI S_ 32 n))) x

theorem wrapVec_apply (n : BitVec 32) (x : IVec S671088 32) (i : S671088.Idx) : wrapVec n x i = wrap n (x i) := rfl

/-- The edges' points: the wrapped rows and the wrapped columns side by side. -/
def points (x6 x7 : IVec S671088 32) : IVec S671088x2 32 :=
  concatenate S671088x2 1
    [⟨S671088x1, broadcastInDim S671088x1 ![0] Facts₀.bcast_S671088_S671088x1_0 (wrapVec 4096#32 x6)⟩,
     ⟨S671088x1, broadcastInDim S671088x1 ![0] Facts₀.bcast_S671088_S671088x1_0 (wrapVec 16384#32 x7)⟩]
    Facts₀.concatenates_S671088x1_S671088x1_S671088x2_d1

/-- The dense matrix: the edge values scatter-added into zeros at the edges' points. -/
def denseArr (x0 : FVec Ideal S671088 .f32) (x6 x7 : IVec S671088 32) : FVec Ideal S4096x16384 .f32 :=
  Host.scatterAdd scatter_S4096x16384_S671088x2_S671088_n_01_01_1
    (broadcastInDim S4096x16384 ![] Facts₀.bcast_S_S4096x16384 (constant (F := Ideal) S_ .f32 0x00000000#32)) (points x6 x7) x0

/-- Entry (P, c) of the dense matrix. -/
theorem dense_apply (x0 : FVec Ideal S671088 .f32) (x6 x7 : IVec S671088 32) (P : Fin 4096) (cc : Fin 16384) :
    (denseArr x0 x6 x7 (ix2 P cc) : EReal) = Cert.Bridge.dense x0 x6 x7 P cc := by
  unfold denseArr
  rw [host_scatterAdd_points scatter_S4096x16384_S671088x2_S671088_n_01_01_1 sk_s0 sk_s1 sk_w0 sk_w1]
  have z : (broadcastInDim S4096x16384 ![] Facts₀.bcast_S_S4096x16384 (constant (F := Ideal) S_ .f32 0x00000000#32) (ix2 P cc) : EReal) = 0 :=
    Ideal.ofBits_zero_f32
  rw [z, zero_add]
  unfold Cert.Bridge.dense
  refine Finset.sum_congr rfl fun e _ => ?_
  have e0 : points x6 x7 (ix2 e (0 : Fin 2)) = wrap 4096#32 (x6 (ix1 e)) := by
    unfold points
    rw [pair_left, column_apply, wrapVec_apply]
  have e1 : points x6 x7 (ix2 e (1 : Fin 2)) = wrap 16384#32 (x7 (ix1 e)) := by
    unfold points
    rw [pair_right, column_apply, wrapVec_apply]
  rw [e0, e1]

variable (m : (ℓ : Loc nD τ sig) → Buf (Elt Ideal) ℓ) (c : Dev nD)

set_option maxHeartbeats 4000000 in
/-- The dense matrix as the region finds it. -/
theorem V14 : (V m c main_v14 : S4096x16384.Idx → EReal)
    = denseArr (m ((c : Thread nD τ).loc main_arg0)) (m ((c : Thread nD τ).loc main_arg6)) (m ((c : Thread nD τ).loc main_arg7)) := by
  dsimp only [V, hostOps0]
  after_results
  rfl

set_option maxHeartbeats 4000000 in
/-- The three weight matrices as the region finds them: the arguments, rounded. -/
theorem V15 : (V m c main_v15 : S8192x1024.Idx → EReal)
    = truncf (F := Ideal) .bf16 (m ((c : Thread nD τ).loc main_arg1)) Facts₀.bitsLt_bf16_f32 := by
  dsimp only [V, hostOps0]
  after_results

set_option maxHeartbeats 4000000 in
theorem V16 : (V m c main_v16 : S8192x256.Idx → EReal)
    = truncf (F := Ideal) .bf16 (m ((c : Thread nD τ).loc main_arg3)) Facts₀.bitsLt_bf16_f32 := by
  dsimp only [V, hostOps0]
  after_results

set_option maxHeartbeats 4000000 in
theorem V17 : (V m c main_v17 : S256x1024.Idx → EReal)
    = truncf (F := Ideal) .bf16 (m ((c : Thread nD τ).loc main_arg5)) Facts₀.bitsLt_bf16_f32 := by
  dsimp only [V, hostOps0]
  after_results

set_option maxHeartbeats 4000000 in
/-- The two bias rows as the region finds them: the bias vectors reshaped to one row. -/
theorem V18 : (V m c main_v18 : S1x1024.Idx → EReal)
    = shapeCast S1x1024 (m ((c : Thread nD τ).loc main_arg2) : S1024.Idx → EReal) Facts₀.shapeCasts_S1024_S1x1024 := by
  dsimp only [V, hostOps0]
  after_results
  rfl

set_option maxHeartbeats 4000000 in
theorem V19 : (V m c main_v19 : S1x256.Idx → EReal)
    = shapeCast S1x256 (m ((c : Thread nD τ).loc main_arg4) : S256.Idx → EReal) Facts₀.shapeCasts_S256_S1x256 := by
  dsimp only [V, hostOps0]
  after_results
  rfl

end Cert.KernelIdeal.Arrays

end
-- ==== Proof.KernelBlocks.lean ====
/-
  The input blocks a grid point holds, entry by entry.

  Point t's block of the dense matrix is its rows 128·t … 128·t + 127, all 16384 columns; the blocks of the three weight
  matrices and of the two bias rows are those arrays whole, at every point. Each entry of a block is read off the array
  the region finds, which is a function of the arguments: the scatter-added dense matrix, the weights rounded to the
  narrower format (the identity at the exact values), the bias vectors as one-row matrices.
-/
import proofs.«181386_g31069793419385_cont_9to1_1561_2_alg».proof.Proof.Gen.KernelIdeal.Value
import proofs.«181386_g31069793419385_cont_9to1_1561_2_alg».proof.Proof.KernelArrays
import Idealize.ShloMosaic.Lib.Pipeline.Value
import Idealize.ShloMosaic.Lib.ValueIdx
import Idealize.ShloMosaic.Lib.ValueLayout

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.KernelIdeal.Arrays

variable (m : (ℓ : Loc nD τ sig) → Buf (Elt Ideal) ℓ)

/-- The index maps over the grid: the dense matrix's window moves down one block of rows per point, every other input
    window stays at block zero. -/
theorem idx_in : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem blk0 (c : Dev nD) (t : Fin cfg0.N) (p : Fin 128) (cc : Fin 16384) (hP : 128 * t.val + p.val < 4096) :
    (iblk m c 0 t (ix2 p cc) : EReal) = Cert.Bridge.dense (m ((c : Thread nD τ).loc main_arg0)) (m ((c : Thread nD τ).loc main_arg6)) (m ((c : Thread nD τ).loc main_arg7)) (⟨128 * t.val + p.val, hP⟩ : Fin 4096) cc := by
  obtain ⟨a0, a1, b0, b1, c0, c1, d0, d1, e0, e1, f0, f1⟩ := idx_in t
  have h : ((cfg0.win 0).blk t).view.emb (ix2 p cc) = ix2 (⟨128 * t.val + p.val, hP⟩ : Fin 4096) cc := by
    funext a; apply Fin.ext
    match a with
    | ⟨0, _⟩ => show win0_0.index t (0 : Fin 2) * 128 + 1 * p.val = 128 * t.val + p.val; omega
    | ⟨1, _⟩ => show win0_0.index t (1 : Fin 2) * 16384 + 1 * cc.val = cc.val; omega
  show V m c (Pipeline.arrRef spec0 0) (((cfg0.win 0).blk t).view.emb (ix2 p cc)) = _
  rw [h]
  show V m c main_v14 _ = _
  rw [V14, dense_apply]

theorem blk1 (c : Dev nD) (t : Fin cfg0.N) (k : Fin 8192) (q : Fin 1024) :
    (iblk m c 1 t (ix2 k q) : EReal) = (m ((c : Thread nD τ).loc main_arg1)) (ix2 k q) := by
  obtain ⟨a0, a1, b0, b1, c0, c1, d0, d1, e0, e1, f0, f1⟩ := idx_in t
  have h : ((cfg0.win 1).blk t).view.emb (ix2 k q) = ix2 k q := by
    funext a; apply Fin.ext
    match a with
    | ⟨0, _⟩ => show win0_1.index t (0 : Fin 2) * 8192 + 1 * k.val = k.val; omega
    | ⟨1, _⟩ => show win0_1.index t (1 : Fin 2) * 1024 + 1 * q.val = q.val; omega
  show V m c (Pipeline.arrRef spec0 1) (((cfg0.win 1).blk t).view.emb (ix2 k q)) = _
  rw [h]
  show V m c main_v15 _ = _
  rw [V15]
  rfl

theorem blk2 (c : Dev nD) (t : Fin cfg0.N) (k : Fin 8192) (j : Fin 256) :
    (iblk m c 2 t (ix2 k j) : EReal) = (m ((c : Thread nD τ).loc main_arg3)) (ix2 k j) := by
  obtain ⟨a0, a1, b0, b1, c0, c1, d0, d1, e0, e1, f0, f1⟩ := idx_in t
  have h : ((cfg0.win 2).blk t).view.emb (ix2 k j) = ix2 k j := by
    funext a; apply Fin.ext
    match a with
    | ⟨0, _⟩ => show win0_2.index t (0 : Fin 2) * 8192 + 1 * k.val = k.val; omega
    | ⟨1, _⟩ => show win0_2.index t (1 : Fin 2) * 256 + 1 * j.val = j.val; omega
  show V m c (Pipeline.arrRef spec0 2) (((cfg0.win 2).blk t).view.emb (ix2 k j)) = _
  rw [h]
  show V m c main_v16 _ = _
  rw [V16]
  rfl

theorem blk3 (c : Dev nD) (t : Fin cfg0.N) (j : Fin 256) (q : Fin 1024) :
    (iblk m c 3 t (ix2 j q) : EReal) = (m ((c : Thread nD τ).loc main_arg5)) (ix2 j q) := by
  obtain ⟨a0, a1, b0, b1, c0, c1, d0, d1, e0, e1, f0, f1⟩ := idx_in t
  have h : ((cfg0.win 3).blk t).view.emb (ix2 j q) = ix2 j q := by
    funext a; apply Fin.ext
    match a with
    | ⟨0, _⟩ => show win0_3.index t (0 : Fin 2) * 256 + 1 * j.val = j.val; omega
    | ⟨1, _⟩ => show win0_3.index t (1 : Fin 2) * 1024 + 1 * q.val = q.val; omega
  show V m c (Pipeline.arrRef spec0 3) (((cfg0.win 3).blk t).view.emb (ix2 j q)) = _
  rw [h]
  show V m c main_v17 _ = _
  rw [V17]
  rfl

theorem blk4 (c : Dev nD) (t : Fin cfg0.N) (q : Fin 1024) :
    (iblk m c 4 t (ix2 (0 : Fin 1) q) : EReal) = (m ((c : Thread nD τ).loc main_arg2)) (ix1 q) := by
  obtain ⟨a0, a1, b0, b1, c0, c1, d0, d1, e0, e1, f0, f1⟩ := idx_in t
  have h : ((cfg0.win 4).blk t).view.emb (ix2 (0 : Fin 1) q) = ix2 (0 : Fin 1) q := by
    funext a; apply Fin.ext
    match a with
    | ⟨0, _⟩ => show win0_4.index t (0 : Fin 2) * 1 + 1 * (0 : Fin 1).val = (0 : Fin 1).val; omega
    | ⟨1, _⟩ => show win0_4.index t (1 : Fin 2) * 1024 + 1 * q.val = q.val; omega
  show V m c (Pipeline.arrRef spec0 4) (((cfg0.win 4).blk t).view.emb (ix2 (0 : Fin 1) q)) = _
  rw [h]
  show V m c main_v18 _ = _
  rw [V18, shapeCast_a_1a_apply]

theorem blk5 (c : Dev nD) (t : Fin cfg0.N) (j : Fin 256) :
    (iblk m c 5 t (ix2 (0 : Fin 1) j) : EReal) = (m ((c : Thread nD τ).loc main_arg4)) (ix1 j) := by
  obtain ⟨a0, a1, b0, b1, c0, c1, d0, d1, e0, e1, f0, f1⟩ := idx_in t
  have h : ((cfg0.win 5).blk t).view.emb (ix2 (0 : Fin 1) j) = ix2 (0 : Fin 1) j := by
    funext a; apply Fin.ext
    match a with
    | ⟨0, _⟩ => show win0_5.index t (0 : Fin 2) * 1 + 1 * (0 : Fin 1).val = (0 : Fin 1).val; omega
    | ⟨1, _⟩ => show win0_5.index t (1 : Fin 2) * 256 + 1 * j.val = j.val; omega
  show V m c (Pipeline.arrRef spec0 5) (((cfg0.win 5).blk t).view.emb (ix2 (0 : Fin 1) j)) = _
  rw [h]
  show V m c main_v19 _ = _
  rw [V19, shapeCast_a_1a_apply]

end Cert.KernelIdeal.Blocks

end
-- ==== Proof.KernelWhole.lean ====
/-
  The kernel's result array is the reference's result.

  The grid has 32 points; point t holds rows 128·t … 128·t + 127 of the dense matrix and of the result, and the weight
  matrices and bias rows whole. So what point t writes back is block t of one whole-array function — the reference's
  result as a function of the arguments — by the entry-by-entry identity of a tile's row with the dense matrix's row;
  the 32 blocks tile the [4096, 1024] result, so after the run the result array is that function.
-/
import proofs.«181386_g31069793419385_cont_9to1_1561_2_alg».proof.Proof.Gen.KernelIdeal.Value
import proofs.«181386_g31069793419385_cont_9to1_1561_2_alg».proof.Proof.KernelBlocks
import proofs.«181386_g31069793419385_cont_9to1_1561_2_alg».proof.Proof.Bridge
import Idealize.ShloMosaic.Lib.Pipeline.Value
import Idealize.ShloMosaic.Lib.ValueIdx
import Idealize.ShloMosaic.Lib.ValueLayout

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The reference's result as a function of the kernel's argument arrays. -/
abbrev G (c : Dev nD) : S4096x1024.Idx → EReal :=
  Cert.ReferenceIdeal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

theorem hz : (![0, 0] : Fin 2 → Nat) = fun _ => 0 := funext fun a => by fin_cases a <;> rfl

/-- The result's window moves down one block of rows per grid point. -/
theorem idx_out : ∀ t : Fin cfg0.N, win0_6.index t (0 : Fin 2) = t.val ∧ win0_6.index t (1 : Fin 2) = 0 :=
  (by decide +kernel : ∀ t : Fin grid0.N, _)

/-- What point `t` writes back is block `t` of the reference's result. -/
theorem flushed_eq (c : Dev nD) (hc : ∀ e : Fin 671088, 0 ≤ (((m ((c : Thread nD τ).loc main_arg7)) : IVec S671088 32) (ix1 e)).toInt) (t : Fin cfg0.N) :
    (dats m 0 c).flushed 6 t = ((cfg0.win 6).blk t).view.read (Elt Ideal) (G m c) := by
  rw [Cert.KernelIdeal.Value.flushed6]
  unfold out0_6
  rw [View.canon_unit_zero hz]
  simp only [View.ld_unit_zero (S := S128x16384) hz, View.ld_unit_zero (S := S8192x1024) hz, View.ld_unit_zero (S := S8192x256) hz,
    View.ld_unit_zero (S := S1x256) hz, View.ld_unit_zero (S := S256x1024) hz, View.ld_unit_zero (S := S1x1024) hz]
  obtain ⟨g0, g1⟩ := idx_out t
  have htN : t.val < 32 := t.isLt
  funext j
  obtain ⟨p, q, rfl⟩ : ∃ (p : Fin 128) (q : Fin 1024), j = ix2 p q := ⟨j 0, j 1, eq_ix2 j⟩
  have hp : p.val < 128 := p.isLt
  have hP : 128 * t.val + p.val < 4096 := by omega
  show k0_pay1 (F := Ideal) (iblk m c 0 t) (iblk m c 1 t) (iblk m c 2 t) (iblk m c 5 t) (iblk m c 3 t) (iblk m c 4 t) (ix2 p q)
    = G m c (((cfg0.win 6).blk t).view.emb (ix2 p q))
  have hemb : ((cfg0.win 6).blk t).view.emb (ix2 p q) = ix2 (⟨128 * t.val + p.val, hP⟩ : Fin 4096) q := by
      funext a; apply Fin.ext
      match a with
      | ⟨0, _⟩ => show win0_6.index t (0 : Fin 2) * 128 + 1 * p.val = 128 * t.val + p.val; omega
      | ⟨1, _⟩ => show win0_6.index t (1 : Fin 2) * 1024 + 1 * q.val = q.val; omega
  rw [hemb]
  refine Cert.Bridge.entry_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) hc
    (iblk m c 0 t) (iblk m c 1 t) (iblk m c 2 t) (iblk m c 3 t) (iblk m c 4 t) (iblk m c 5 t)
    (⟨128 * t.val + p.val, hP⟩ : Fin 4096) p q ?_ ?_ ?_ ?_ ?_ ?_
  · exact fun cc => Cert.KernelIdeal.Blocks.blk0 m c t p cc hP
  · exact fun k q' => Cert.KernelIdeal.Blocks.blk1 m c t k q'
  · exact fun k j' => Cert.KernelIdeal.Blocks.blk2 m c t k j'
  · exact fun j' q' => Cert.KernelIdeal.Blocks.blk3 m c t j' q'
  · exact fun q' => Cert.KernelIdeal.Blocks.blk4 m c t q'
  · exact fun j' => Cert.KernelIdeal.Blocks.blk5 m c t j'

/-- An index of the result is in point `t`'s block iff each coordinate is in the block's range on its axis. -/
theorem mem_blk (t : Fin cfg0.N) (i : S4096x1024.Idx) :
    i ∈ ((cfg0.win 6).blk t).view.set ↔ ∀ a : Fin 2, win0_6.index t a * S128x1024.size a ≤ (i a).val ∧ (i a).val < win0_6.index t a * S128x1024.size a + S128x1024.size a := by
  show i ∈ ((View.whole main_v20).slice (win0_6.rect t)).set ↔ _
  rw [View.set_slice_whole, Rect.mem_set_unit]
  exact Iff.rfl

/-- Every index of the result is in the block of the point its row falls in. -/
theorem cover (i : S4096x1024.Idx) : ∃ t : Fin cfg0.N, (cfg0.win 6).flush t = true ∧ i ∈ ((cfg0.win 6).blk t).view.set := by
  have hi0 : (i 0).val < 4096 := (i 0).isLt
  have hi1 : (i 1).val < 1024 := (i 1).isLt
  have hlt : (i 0).val / 128 < 32 := by omega
  obtain ⟨g0, g1⟩ := idx_out ⟨(i 0).val / 128, hlt⟩
  have g0' : win0_6.index ⟨(i 0).val / 128, hlt⟩ (0 : Fin 2) = (i 0).val / 128 := g0
  refine ⟨⟨(i 0).val / 128, hlt⟩, flush0_6 _, ?_⟩
  rw [mem_blk]
  intro a
  match a with
  | ⟨0, _⟩ =>
    show win0_6.index ⟨(i 0).val / 128, hlt⟩ (0 : Fin 2) * 128 ≤ (i 0).val ∧ (i 0).val < win0_6.index ⟨(i 0).val / 128, hlt⟩ (0 : Fin 2) * 128 + 128
    omega
  | ⟨1, _⟩ =>
    show win0_6.index ⟨(i 0).val / 128, hlt⟩ (1 : Fin 2) * 1024 ≤ (i 1).val ∧ (i 1).val < win0_6.index ⟨(i 0).val / 128, hlt⟩ (1 : Fin 2) * 1024 + 1024
    omega

/-- The result array after the run is the reference's result of the arguments. -/
theorem final (c : Dev nD) (hc : ∀ e : Fin 671088, 0 ≤ (((m ((c : Thread nD τ).loc main_arg7)) : IVec S671088 32) (ix1 e)).toInt) :
    (dats m 0 c).arrAt 6 cfg0.N = G m c :=
  (dats m 0 c).arrAt_eq_of_cover 6 (G m c) (fun t _ => flushed_eq m c hc t) cover

/-- The kernel's run, with its result named. -/
theorem run (hc : ∀ (c : Dev nD) (e : Fin 671088), 0 ≤ (((m ((c : Thread nD τ).loc main_arg7)) : IVec S671088 32) (ix1 e)).toInt) :
    θ_run defs (onTc (τ := τ) (main (F := Ideal))) ⟨m, fun _ => 0, ρ⟩ fun r => ∀ c : Dev nD,
      r.2.mem ((c : Thread nD τ).loc main_v20) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c (hc c)), (h c).2⟩)
    (Cert.KernelIdeal.Value.run_blocks m ρ)

end Cert.KernelIdeal.Whole

end
-- ==== Proof.PreDecode.lean ====
/-
  What the precondition says of the column words.

  The precondition is a conjunction of one-bit words: each float input finite at every entry, and every column word
  at least zero as a signed number. Its last conjunct is an "all" over the edges of the comparison "column ≥ 0"; when
  the whole conjunction is one, that comparison is one at every edge, which is the inequality on the signed readings.
-/
import proofs.«181386_g31069793419385_cont_9to1_1561_2_alg».proof.Defs
import Idealize.ShloMosaic.Lib.ReduceAll
import Idealize.ShloMosaic.Lib.Affine
import Idealize.ShloMosaic.Lib.ValueIdx

noncomputable section

namespace Cert.PreDecode

open Idealize.ShloMosaic Idealize.ShloMosaic.ValueIdx Idealize.SL.Sem Cert.Pre_finite_inputs

instance : Subsingleton S_.Idx := ⟨fun a b => funext fun d => d.elim0⟩

/-- When the precondition's word is one, every column word is non-negative. -/
theorem cols_nonneg {F : FTy → Type} [FloatOps F] [Cert.Pre_finite_inputs.Facts]
    (a0 : FVec F S671088 .f32) (a1 : FVec F S8192x1024 .f32) (a2 : FVec F S1024 .f32) (a3 : FVec F S8192x256 .f32)
    (a4 : FVec F S256 .f32) (a5 : FVec F S256x1024 .f32) (a6 a7 : IVec S671088 32)
    (h : fn (F := F) a0 a1 a2 a3 a4 a5 a6 a7 = fun _ => 1#1) (i : S671088.Idx) : 0 ≤ (a7 i).toInt := by
  have h0 := congrFun h ix0
  dsimp only [fn, fn_part1] at h0
  have h1 := (IntOp.andi_eq_one.1 h0).2
  have h2 := Host.reduce_andi_all _ _ _ _ _ h1 i
  have h3 := IntOp.cmpi_sge.1 h2
  have h4 : (0#32 : BitVec 32).toInt = 0 := by decide
  have h5 : (0#32 : BitVec 32).toInt ≤ (a7 i).toInt := h3
  omega

/-- The same, from the precondition of the idealized kernel's memory. -/
theorem cols_nonneg_kernel [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.KernelIdeal.S671088.Idx) :
    0 ≤ ((m ((c.tc : Thread Cert.KernelIdeal.nD Cert.KernelIdeal.τ).loc Cert.KernelIdeal.main_arg7) : IVec Cert.KernelIdeal.S671088 32) i).toInt :=
  cols_nonneg _ _ _ _ _ _ _ _ (h c) i

end Cert.PreDecode

end
-- ==== Proof.lean ====
/-
  The sparse-input network: a dense scatter and one fused product, against the split scatter and three products.

  Both programs take a sparse [4096, 16384] matrix as a list of edges (row word, column word, value). The kernel
  scatter-adds the edges into ONE dense matrix, and a grid of 32 points computes, for a tile of 128 rows,
      (x[:, :8192]·Wf  +  (x[:, 8192:]·Wr1 + br)·Wr2)  +  bf.
  The reference splits the edges at column 8192 into a low and a high matrix — an edge on the wrong side of the split
  is kept with value zero at column zero — and computes (Xf·Wf + bf) + (Xr·Wr1 + br)·Wr2.
  A negative index is wrapped once by the extent of the axis it indexes, and that extent is 16384 in the kernel and 8192
  in the reference, so the two agree when the column words are not negative: the precondition says so, beside the
  finiteness of the float inputs (which the proof does not use). Under it every edge adds the same number to entry
  (P, k) of the low matrix and of the dense one, and to entry (P, k) of the high matrix and (P, 8192 + k) of the dense
  one; a zero-valued edge adds nothing. At the exact values a change of float format is the identity and each product is
  the plain sum over the contracted axis, so entry by entry the two results differ only in where the bias bf is added,
  and addition of extended reals is commutative and associative.
  The three frames and the kernel's run with its result array named are the generated modules'; written here are the
  two scatters read at an entry, the tile's entry, the cover of the result by the 32 blocks, and the assembly.
-/
import proofs.«181386_g31069793419385_cont_9to1_1561_2_alg».proof.Defs
import proofs.«181386_g31069793419385_cont_9to1_1561_2_alg».proof.Proof.Gen.Kernel
import proofs.«181386_g31069793419385_cont_9to1_1561_2_alg».proof.Proof.Gen.Kernel.Skeleton
import proofs.«181386_g31069793419385_cont_9to1_1561_2_alg».proof.Proof.Gen.Kernel.Launch
import proofs.«181386_g31069793419385_cont_9to1_1561_2_alg».proof.Proof.Gen.Kernel.Points
import proofs.«181386_g31069793419385_cont_9to1_1561_2_alg».proof.Proof.Gen.Kernel.Frame
import proofs.«181386_g31069793419385_cont_9to1_1561_2_alg».proof.Proof.Gen.KernelIdeal
import proofs.«181386_g31069793419385_cont_9to1_1561_2_alg».proof.Proof.Gen.KernelIdeal.Skeleton
import proofs.«181386_g31069793419385_cont_9to1_1561_2_alg».proof.Proof.Gen.KernelIdeal.Launch
import proofs.«181386_g31069793419385_cont_9to1_1561_2_alg».proof.Proof.Gen.KernelIdeal.Points
import proofs.«181386_g31069793419385_cont_9to1_1561_2_alg».proof.Proof.Gen.KernelIdeal.Frame
import proofs.«181386_g31069793419385_cont_9to1_1561_2_alg».proof.Proof.Gen.ReferenceIdeal
import proofs.«181386_g31069793419385_cont_9to1_1561_2_alg».proof.Proof.Gen.Pre_finite_inputs
import proofs.«181386_g31069793419385_cont_9to1_1561_2_alg».proof.Proof.Gen.KernelIdeal.Value
import proofs.«181386_g31069793419385_cont_9to1_1561_2_alg».proof.Proof.Gen.ReferenceIdeal.Run
import proofs.«181386_g31069793419385_cont_9to1_1561_2_alg».proof.Proof.Gen.ReferenceIdeal.Read
import proofs.«181386_g31069793419385_cont_9to1_1561_2_alg».proof.Proof.KernelWhole
import proofs.«181386_g31069793419385_cont_9to1_1561_2_alg».proof.Proof.PreDecode
import Idealize.ShloMosaic.Adequacy
import Idealize.ShloMosaic.Init

noncomputable section

namespace Cert.Proof

open Idealize.ShloMosaic Idealize.SL.Sem Idealize.ShloMosaic.TcCoe

/-- The word-level kernel runs and leaves its arguments as they were. -/
theorem frame_p : Cert.frame_Kernel := fun m ρ _ => Cert.Kernel.Gen.frame m ρ

/-- So does the idealized kernel. -/
theorem frame_pi : Cert.frame_KernelIdeal := fun m ρ _ => Cert.KernelIdeal.Gen.frame m ρ

/-- The reference runs and leaves its arguments as they were: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten when the kernel was idealized. -/
theorem preserves : Cert.preserves_Kernel_KernelIdeal := trivial

/-- From memories agreeing on the arguments, with non-negative column words, both programs end with the reference's
    result of the arguments in their result arrays. -/
theorem algebraic : Cert.algebraic_KernelIdeal_ReferenceIdeal := by
  intro m ρ m' ρ' hpre hagree
  have hc : ∀ (c : Dev Cert.KernelIdeal.nD) (e : Fin 671088),
      0 ≤ ((m ((c : Thread Cert.KernelIdeal.nD Cert.KernelIdeal.τ).loc Cert.KernelIdeal.main_arg7) : IVec Cert.KernelIdeal.S671088 32)
        (ValueIdx.ix1 e)).toInt :=
    fun c e => Cert.PreDecode.cols_nonneg_kernel m hpre c (ValueIdx.ix1 e)
  refine ⟨fun c => Cert.KernelIdeal.Whole.G m c, Cert.KernelIdeal.Whole.run m ρ hc, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq, (hagree c).1, (hagree c).2.1, (hagree c).2.2.1, (hagree c).2.2.2.1,
    (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
